-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S1024x1024 : Shape := ⟨2, ![1024, 1024]⟩
abbrev S1024 : Shape := ⟨1, ![1024]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x1024 .f32) (main_arg5 : FVec F S1024 .f32) (main_arg6 : FVec F S1024x1024 .f32) (main_arg7 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S16x2048x1024 .f32) (main_arg1 : FVec F S16x2048x1024 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S16x2048x1024 .f32 := Host.absf main_arg1
  let main_cst_0 : FVec F S_ .f32 := constant S_ .f32 0x7F800000#32
  let main_v5 : FVec F S16x2048x1024 .f32 := broadcastInDim S16x2048x1024 ![] bcast_S_S16x2048x1024 main_cst_0
  let main_v6 : IVec S16x2048x1024 1 := cmpf .olt main_v4 main_v5
  let main_c_1 : IVec S_ 1 := constantI S_ 1 1#1
  let main_v7 : IVec S_ 1 := (fun x v => Host.reduce IntOp.andi x v reducesTo_S16x2048x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S16x2048x1024 : Shape := ⟨3, ![16, 2048, 1024]⟩
abbrev S1024x1024 : Shape := ⟨2, ![1024, 1024]⟩
abbrev S1024 : Shape := ⟨1, ![1024]⟩
abbrev S1x1024 : Shape := ⟨2, ![1, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S16x2048x2048 : Shape := ⟨3, ![16, 2048, 2048]⟩
abbrev S1x2048x1024 : Shape := ⟨3, ![1, 2048, 1024]⟩
abbrev S1x256x2048 : Shape := ⟨3, ![1, 256, 2048]⟩
abbrev S2048x1024 : Shape := ⟨2, ![2048, 1024]⟩
abbrev S256x2048 : Shape := ⟨2, ![256, 2048]⟩

abbrev nBuf : Space → Nat
  | .hbm => 18
  | .vmem => 22
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S16x2048x1024, .bf16⟩
  | .hbm, ⟨15, _⟩ => ⟨S16x2048x1024, .bf16⟩
  | .hbm, ⟨16, _⟩ => ⟨S16x2048x1024, .f32⟩
  | .hbm, ⟨17, _⟩ => ⟨S16x2048x2048, .f32⟩
  | .local _ .vmem, ⟨0, _⟩ => ⟨S1x256x1024, .f32⟩
  | .local _ .vmem, ⟨1, _⟩ => ⟨S1x256x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .f32⟩
  | .local _ .vmem, ⟨11, _⟩ => ⟨S1x256x1024, .f32⟩
  | .local _ .vmem, ⟨12, _⟩ => ⟨S1024x1024, .bf16⟩
  | .local _ .vmem, ⟨13, _⟩ => ⟨S1x1024, .f32⟩
  | .local _ .vmem, ⟨14, _⟩ => ⟨S1x2048x1024, .bf16⟩
  | .local _ .vmem, ⟨15, _⟩ => ⟨S1x2048x1024, .bf16⟩
  | .local _ .vmem, ⟨16, _⟩ => ⟨S1x2048x1024, .bf16⟩
  | .local _ .vmem, ⟨17, _⟩ => ⟨S1x2048x1024, .bf16⟩
  | .local _ .vmem, ⟨18, _⟩ => ⟨S1x256x1024, .f32⟩
  | .local _ .vmem, ⟨19, _⟩ => ⟨S1x256x1024, .f32⟩
  | .local _ .vmem, ⟨20, _⟩ => ⟨S1x256x2048, .f32⟩
  | .local _ .vmem, ⟨21, _⟩ => ⟨S1x256x2048, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v7_0 : Ref sig .tc := ⟨.hbm, 16, rfl⟩
abbrev main_v7_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![16, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x2048x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x2048x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x256x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  shapeCasts_S1024_S1x1024 : S1024.ShapeCasts S1x1024
  bitsLt_bf16_f32 : FTy.bits .bf16 < FTy.bits .f32
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  reduces_S256x1024_S256 : S256x1024.Reduces [1] S256
  shapeCasts_S256_S256x1 : S256.ShapeCasts S256x1
  broadcasts_S256x1_S256x1024 : S256x1.Broadcasts S256x1024
  shapeCasts_S256x1024_S1x256x1024 : S256x1024.ShapeCasts S1x256x1024
  packedbf16_S1x256x1024_S1x256x1024_0_0_0 : (Rect.unit (s := S1x256x1024) ![0, 0, 0] S1x256x1024.size inb_S1x256x1024_S1x256x1024_0_0_0).PackedRows (EltTy.packing .bf16)
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S256x2048_S256 : S256x2048.Reduces [1] S256
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  dot_S256x1024_S1024x1024_S256x1024_1_0_0_1_n_n_wf : DotDims.WF S256x1024 S1024x1024 S256x1024 [1] [0] [0] [1] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S16x2048x1024.size a
  hwx0_0 : ∀ i : grid0.Coords, EltTy.bits .f32 = 32 ∨ (Rect.block (s := S16x2048x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1024.size a ≤ S16x2048x1024.size a
  hwx0_5 : ∀ i : grid0.Coords, EltTy.bits .bf16 = 32 ∨ (Rect.block (s := S16x2048x1024) S1x256x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x1024.size a ≤ S16x2048x1024.size a
  hwx0_6 : ∀ i : grid0.Coords, EltTy.bits .bf16 = 32 ∨ (Rect.block (s := S16x2048x1024) S1x256x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S16x2048x1024.size a
  hwx1_0 : ∀ i : grid1.Coords, EltTy.bits .f32 = 32 ∨ (Rect.block (s := S16x2048x1024) S1x256x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x1024.size a ≤ S16x2048x1024.size a
  hwx1_3 : ∀ i : grid1.Coords, EltTy.bits .bf16 = 32 ∨ (Rect.block (s := S16x2048x1024) S1x2048x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2048x1024.size a ≤ S16x2048x1024.size a
  hwx1_4 : ∀ i : grid1.Coords, EltTy.bits .bf16 = 32 ∨ (Rect.block (s := S16x2048x1024) S1x2048x1024.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x1024.size a ≤ S16x2048x1024.size a
  hwx1_5 : ∀ i : grid1.Coords, EltTy.bits .f32 = 32 ∨ (Rect.block (s := S16x2048x1024) S1x256x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x256x2048.size a ≤ S16x2048x2048.size a
  hwx1_6 : ∀ i : grid1.Coords, EltTy.bits .f32 = 32 ∨ (Rect.block (s := S16x2048x2048) S1x256x2048.size (cc1_transform_6 i) (hinb1_6 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg1) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S1x256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S1x256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6_0) S1x2048x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6_1) S1x2048x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v7_0) S1x256x1024.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v7_1) S1x256x2048.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S16x2048x1024 : Shape := ⟨3, ![16, 2048, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S16x2048 : Shape := ⟨2, ![16, 2048]⟩
abbrev S16x2048x1 : Shape := ⟨3, ![16, 2048, 1]⟩
abbrev S16x2048x2048 : Shape := ⟨3, ![16, 2048, 2048]⟩

abbrev nBuf : Space → Nat
  | .hbm => 91
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S16x2048x1024, .f32⟩
  | .hbm, ⟨9, _⟩ => ⟨S1x1x1024, .f32⟩
  | .hbm, ⟨10, _⟩ => ⟨S16x2048x1024, .f32⟩
  | .hbm, ⟨11, _⟩ => ⟨S16x2048x1024, .f32⟩
  | .hbm, ⟨12, _⟩ => ⟨S16x2048x1024, .f32⟩
  | .hbm, ⟨13, _⟩ => ⟨S_, .f32⟩
  | .hbm, ⟨14, _⟩ => ⟨S16x2048, .f32⟩
  | .hbm, ⟨15, _⟩ => ⟨S16x2048x1, .f32⟩
  | .hbm, ⟨16, _⟩ => ⟨S_, .f32⟩
  | .hbm, ⟨17, _⟩ => ⟨S16x2048x1, .f32⟩
  | .hbm, ⟨18, _⟩ => ⟨S16x2048x1, .f32⟩
  | .hbm, ⟨19, _⟩ => ⟨S16x2048x1, .f32⟩
  | .hbm, ⟨20, _⟩ => ⟨S16x2048x1024, .f32⟩
  | .hbm, ⟨21, _⟩ => ⟨S16x2048x1024, .f32⟩
  | .hbm, ⟨22, _⟩ => ⟨S16x2048x1024, .f32⟩
  | .hbm, ⟨23, _⟩ => ⟨S1x1x1024, .f32⟩
  | .hbm, ⟨24, _⟩ => ⟨S16x2048x1024, .f32⟩
  | .hbm, ⟨25, _⟩ => ⟨S16x2048x1024, .f32⟩
  | .hbm, ⟨26, _⟩ => ⟨S16x2048x1024, .f32⟩
  | .hbm, ⟨27, _⟩ => ⟨S_, .f32⟩
  | .hbm, ⟨28, _⟩ => ⟨S16x2048, .f32⟩
  | .hbm, ⟨29, _⟩ => ⟨S16x2048x1, .f32⟩
  | .hbm, ⟨30, _⟩ => ⟨S_, .f32⟩
  | .hbm, ⟨31, _⟩ => ⟨S16x2048x1, .f32⟩
  | .hbm, ⟨32, _⟩ => ⟨S16x2048x1, .f32⟩
  | .hbm, ⟨33, _⟩ => ⟨S16x2048x1, .f32⟩
  | .hbm, ⟨34, _⟩ => ⟨S16x2048x1024, .f32⟩
  | .hbm, ⟨35, _⟩ => ⟨S16x2048x1024, .f32⟩
  | .hbm, ⟨36, _⟩ => ⟨S16x2048x1024, .f32⟩
  | .hbm, ⟨37, _⟩ => ⟨S1x1x1024, .f32⟩
  | .hbm, ⟨38, _⟩ => ⟨S16x2048x1024, .f32⟩
  | .hbm, ⟨39, _⟩ => ⟨S16x2048x1024, .f32⟩
  | .hbm, ⟨40, _⟩ => ⟨S16x2048x1024, .f32⟩
  | .hbm, ⟨41, _⟩ => ⟨S_, .f32⟩
  | .hbm, ⟨42, _⟩ => ⟨S16x2048, .f32⟩
  | .hbm, ⟨43, _⟩ => ⟨S16x2048x1, .f32⟩
  | .hbm, ⟨44, _⟩ => ⟨S_, .f32⟩
  | .hbm, ⟨45, _⟩ => ⟨S16x2048x1, .f32⟩
  | .hbm, ⟨46, _⟩ => ⟨S16x2048x1, .f32⟩
  | .hbm, ⟨47, _⟩ => ⟨S16x2048x1, .f32⟩
  | .hbm, ⟨48, _⟩ => ⟨S16x2048x1024, .f32⟩
  | .hbm, ⟨49, _⟩ => ⟨S16x2048x1024, .f32⟩
  | .hbm, ⟨50, _⟩ => ⟨S16x2048x2048, .f32⟩
  | .hbm, ⟨51, _⟩ => ⟨S_, .f32⟩
  | .hbm, ⟨52, _⟩ => ⟨S_, .f32⟩
  | .hbm, ⟨53, _⟩ => ⟨S16x2048x2048, .f32⟩
  | .hbm, ⟨54, _⟩ => ⟨S16x2048x2048, .f32⟩
  | .hbm, ⟨55, _⟩ => ⟨S_, .f32⟩
  | .hbm, ⟨56, _⟩ => ⟨S16x2048, .f32⟩
  | .hbm, ⟨57, _⟩ => ⟨S_, .f32⟩
  | .hbm, ⟨58, _⟩ => ⟨S16x2048, .f32⟩
  | .hbm, ⟨59, _⟩ => ⟨S16x2048, .f32⟩
  | .hbm, ⟨60, _⟩ => ⟨S16x2048x1, .f32⟩
  | .hbm, ⟨61, _⟩ => ⟨S16x2048x2048, .f32⟩
  | .hbm, ⟨62, _⟩ => ⟨S16x2048x2048, .f32⟩
  | .hbm, ⟨63, _⟩ => ⟨S16x2048x2048, .f32⟩
  | .hbm, ⟨64, _⟩ => ⟨S_, .f32⟩
  | .hbm, ⟨65, _⟩ => ⟨S16x2048, .f32⟩
  | .hbm, ⟨66, _⟩ => ⟨S16x2048x1, .f32⟩
  | .hbm, ⟨67, _⟩ => ⟨S16x2048x2048, .f32⟩
  | .hbm, ⟨68, _⟩ => ⟨S16x2048x2048, .f32⟩
  | .hbm, ⟨69, _⟩ => ⟨S16x2048x1024, .f32⟩
  | .hbm, ⟨70, _⟩ => ⟨S16x2048x1024, .f32⟩
  | .hbm, ⟨71, _⟩ => ⟨S_, .f32⟩
  | .hbm, ⟨72, _⟩ => ⟨S16x2048, .f32⟩
  | .hbm, ⟨73, _⟩ => ⟨S16x2048x1, .f32⟩
  | .hbm, ⟨74, _⟩ => ⟨S_, .f32⟩
  | .hbm, ⟨75, _⟩ => ⟨S16x2048x1, .f32⟩
  | .hbm, ⟨76, _⟩ => ⟨S16x2048x1, .f32⟩
  | .hbm, ⟨77, _⟩ => ⟨S16x2048x1, .f32⟩
  | .hbm, ⟨78, _⟩ => ⟨S16x2048x1024, .f32⟩
  | .hbm, ⟨79, _⟩ => ⟨S16x2048x1024, .f32⟩
  | .hbm, ⟨80, _⟩ => ⟨S16x2048x1024, .f32⟩
  | .hbm, ⟨81, _⟩ => ⟨S16x2048x1024, .f32⟩
  | .hbm, ⟨82, _⟩ => ⟨S_, .f32⟩
  | .hbm, ⟨83, _⟩ => ⟨S16x2048, .f32⟩
  | .hbm, ⟨84, _⟩ => ⟨S16x2048x1, .f32⟩
  | .hbm, ⟨85, _⟩ => ⟨S_, .f32⟩
  | .hbm, ⟨86, _⟩ => ⟨S16x2048x1, .f32⟩
  | .hbm, ⟨87, _⟩ => ⟨S16x2048x1, .f32⟩
  | .hbm, ⟨88, _⟩ => ⟨S16x2048x1, .f32⟩
  | .hbm, ⟨89, _⟩ => ⟨S16x2048x1024, .f32⟩
  | .hbm, ⟨90, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_9 : Ref sig .tc := ⟨.hbm, 71, rfl⟩
abbrev main_v53 : Ref sig .tc := ⟨.hbm, 72, rfl⟩
abbrev main_v54 : Ref sig .tc := ⟨.hbm, 73, rfl⟩
abbrev main_cst_10 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_11 : Ref sig .tc := ⟨.hbm, 82, rfl⟩
abbrev main_v62 : Ref sig .tc := ⟨.hbm, 83, rfl⟩
abbrev main_v63 : Ref sig .tc := ⟨.hbm, 84, rfl⟩
abbrev main_cst_12 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S16x2048x1024_0_1_2 : S1x1x1024.BroadcastsInDim S16x2048x1024 (![0, 1, 2] : Fin 3 → Fin S16x2048x1024.rank)
  reducesTo_S16x2048x1024_S16x2048_d2 : S16x2048x1024.ReducesTo [2] S16x2048
  h_S_ : 0 < S_.numel
  bcast_S16x2048_S16x2048x1_0_1 : S16x2048.BroadcastsInDim S16x2048x1 (![0, 1] : Fin 2 → Fin S16x2048x1.rank)
  bcast_S_S16x2048x1 : S_.BroadcastsInDim S16x2048x1 (![] : Fin 0 → Fin S16x2048x1.rank)
  bcast_S16x2048x1_S16x2048x1024_0_1_2 : S16x2048x1.BroadcastsInDim S16x2048x1024 (![0, 1, 2] : Fin 3 → Fin S16x2048x1024.rank)
  bcast_S_S16x2048x2048 : S_.BroadcastsInDim S16x2048x2048 (![] : Fin 0 → Fin S16x2048x2048.rank)
  reducesTo_S16x2048x2048_S16x2048_d2 : S16x2048x2048.ReducesTo [2] S16x2048
  bcast_S_S16x2048 : S_.BroadcastsInDim S16x2048 (![] : Fin 0 → Fin S16x2048.rank)
  bcast_S16x2048x1_S16x2048x2048_0_1_2 : S16x2048x1.BroadcastsInDim S16x2048x2048 (![0, 1, 2] : Fin 3 → Fin S16x2048x2048.rank)
  dot_S16x2048x1024_S1024x1024_S16x2048x1024_2_0_01_1_n_n_wf : DotDims.WF S16x2048x1024 S1024x1024 S16x2048x1024 [2] [0] [0, 1] [1] [] []
  dot_S16x2048x1024_S16x2048x1024_S16x2048x2048_2_2_1_1_0_0_wf : DotDims.WF S16x2048x1024 S16x2048x1024 S16x2048x2048 [2] [2] [1] [1] [0] [0]
  dot_S16x2048x2048_S16x2048x1024_S16x2048x1024_2_1_1_2_0_0_wf : DotDims.WF S16x2048x2048 S16x2048x1024 S16x2048x1024 [2] [1] [1] [2] [0] [0]

variable [Facts₀]

def dot_S16x2048x1024_S1024x1024_S16x2048x1024_2_0_01_1_n_n : DotDims S16x2048x1024 S1024x1024 S16x2048x1024 where
  lhsContracting := [2]
  rhsContracting := [0]
  lhsNonContracting := [0, 1]
  rhsNonContracting := [1]
  lhsBatch := []
  rhsBatch := []
  wf := dot_S16x2048x1024_S1024x1024_S16x2048x1024_2_0_01_1_n_n_wf
def dot_S16x2048x1024_S16x2048x1024_S16x2048x2048_2_2_1_1_0_0 : DotDims S16x2048x1024 S16x2048x1024 S16x2048x2048 where
  lhsContracting := [2]
  rhsContracting := [2]
  lhsNonContracting := [1]
  rhsNonContracting := [1]
  lhsBatch := [0]
  rhsBatch := [0]
  wf := dot_S16x2048x1024_S16x2048x1024_S16x2048x2048_2_2_1_1_0_0_wf
def dot_S16x2048x2048_S16x2048x1024_S16x2048x1024_2_1_1_2_0_0 : DotDims S16x2048x2048 S16x2048x1024 S16x2048x1024 where
  lhsContracting := [2]
  rhsContracting := [1]
  lhsNonContracting := [1]
  rhsNonContracting := [2]
  lhsBatch := [0]
  rhsBatch := [0]
  wf := dot_S16x2048x2048_S16x2048x1024_S16x2048x1024_2_1_1_2_0_0_wf

class Facts : Prop extends Facts₀ where

variable [Facts]
-- ==== Proof.KernelRunPost.lean ====
/- The kernel program's run, with its results kept.

   At the compiled mesh, from any memory with zero counters, every weakly fair execution of the program on the
   TensorCores terminates, nothing faulting, and every final state has the two result buffers at the contents the
   last region leaves (the boundary contents `W3`) and the eight argument arrays as launched.  The thread state at
   the end of the chain of segments holds every unscoped buffer at `W3`; reading it against the final state gives
   each buffer's final contents, and each argument's contents at `W3` walk back to the launch memory. -/
import proofs.«173738_j10161892623139_2_alg».proof.Proof.Gen.KernelIdeal.Frame

set_option maxRecDepth 16384

noncomputable section

namespace Cert.Attn.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the two result buffers at the last boundary's contents and the
    argument arrays as launched. -/
theorem run_results : θ_run defs (onTc (τ := τ) (main (F := F))) ⟨m, fun _ => 0, ρ⟩ (fun r => ∀ c : Dev nD,
      r.2.mem ((c.tc : Thread nD τ).loc main_v7_0) = W3 m ρ c (Proc.devRef .tc main_v7_0)
      ∧ r.2.mem ((c.tc : Thread nD τ).loc main_v7_1) = W3 m ρ c (Proc.devRef .tc main_v7_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v7_0 (by decide)),
       h c _ (mem_uc main_v7_1 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c)⟩)

end Cert.Attn.Run

end
-- ==== Proof.RowSpec.lean ====
/- An attention layer with normalised projections, written row by row on the extended reals.

   A row x of D entries goes through a dense layer (x · W + bias) and is scaled to unit Euclidean length, the squared
   length floored at a small constant before the reciprocal square root.  A query row is scored against every key row
   by an inner product times a constant; the scores go through a softmax (the row maximum subtracted before the
   exponential, then divided by the sum of the exponentials); the softmax weights mix the value rows; the mixed row
   is normalised, added to the query row, and the sum normalised again.

   Both programs compute exactly these rows: one a tile of 256 rows at a time, the other all rows at once.  The one
   place where they spell a number differently is the score's constant: a product with 0.03125 on one side, a
   quotient by the square root of 1024 on the other; these are one function on every extended real (`div_sqrt_1024`). -/
import Idealize.ShloMosaic.PureOps.Ideal

noncomputable section

open scoped BigOperators

open Idealize.ShloMosaic

namespace Cert.Attn

/-- The floor under a squared length: the value the f32 pattern of 1e-12 denotes. -/
def eps : EReal := Ideal.ofBits .f32 0x2B8CBCCC#32

/-- The constant every score is multiplied by: the value the f32 pattern of 0.03125 denotes. -/
def scale : EReal := Ideal.ofBits .f32 0x3D000000#32

/-- A row through a dense layer: entry h is the inner product of the row with column h of W, plus the bias at h. -/
def projRow {D H : ℕ} (x : Fin D → EReal) (W : Fin D → Fin H → EReal) (bias : Fin H → EReal) : Fin H → EReal :=
  fun h => (∑ d : Fin D, x d * W d h) + bias h

/-- A row scaled by the reciprocal square root of its squared length, the squared length floored at `eps`. -/
def normRow {H : ℕ} (p : Fin H → EReal) : Fin H → EReal :=
  fun h => p h * Ideal.rsqrt (max (∑ k : Fin H, p k * p k) eps)

/-- The scores of a query row against L key rows: inner products, each times `scale`. -/
def scoreRow {H L : ℕ} (q : Fin H → EReal) (K : Fin L → Fin H → EReal) : Fin L → EReal :=
  fun j => (∑ h : Fin H, q h * K j h) * scale

/-- The maximum of a row, from the bottom of the extended reals. -/
def maxRow {L : ℕ} (s : Fin L → EReal) : EReal := (Finset.univ : Finset (Fin L)).fold max ⊥ s

/-- The exponentials of a row after its maximum is subtracted. -/
def expRow {L : ℕ} (s : Fin L → EReal) : Fin L → EReal := fun j => Ideal.exp (s j - maxRow s)

/-- The softmax of a row: each shifted exponential over their sum. -/
def softmaxRow {L : ℕ} (s : Fin L → EReal) : Fin L → EReal :=
  fun j => Ideal.div (expRow s j) (∑ k : Fin L, expRow s k)

/-- L value rows mixed with L weights. -/
def mixRow {L H : ℕ} (a : Fin L → EReal) (V : Fin L → Fin H → EReal) : Fin H → EReal :=
  fun h => ∑ j : Fin L, a j * V j h

/-- The attention weights of a query row against the key rows. -/
def attRow {H L : ℕ} (q : Fin H → EReal) (K : Fin L → Fin H → EReal) : Fin L → EReal :=
  softmaxRow (scoreRow q K)

/-- The output row: the query row plus the normalised mix of the value rows, normalised. -/
def crossRow {H L : ℕ} (q : Fin H → EReal) (K V : Fin L → Fin H → EReal) : Fin H → EReal :=
  normRow fun h => q h + normRow (mixRow (attRow q K) V) h

/-- The f32 pattern of 1024.0 denotes the real 1024. -/
theorem ofBits_1024 : Ideal.ofBits .f32 0x44800000#32 = ((1024 : ℝ) : EReal) := by
  simp [Ideal.ofBits, Ideal.ieee, -EReal.coe_mul]; norm_num

/-- The f32 pattern of 0.03125 denotes the real 1/32. -/
theorem ofBits_inv32 : Ideal.ofBits .f32 0x3D000000#32 = ((1 / 32 : ℝ) : EReal) := by
  simp [Ideal.ofBits, Ideal.ieee, -EReal.coe_mul]; norm_num

/-- The square root of 1024 is 32. -/
theorem sqrt_1024 : Real.sqrt 1024 = 32 := by
  rw [show (1024 : ℝ) = 32 ^ 2 by norm_num]
  exact Real.sqrt_sq (by norm_num)

/-- A quotient by the square root of 1024 is the product with 0.03125, on every extended real: both are the product
    with the real 1/32. -/
theorem div_sqrt_1024 (x : EReal) :
    Ideal.div x (Ideal.sqrt (Ideal.ofBits .f32 0x44800000#32)) = x * scale := by
  unfold scale
  rw [ofBits_1024, ofBits_inv32, Ideal.sqrt_coe, if_neg (by norm_num), sqrt_1024,
    Ideal.div_coe (by norm_num : (32 : ℝ) ≠ 0)]

end Cert.Attn

end
-- ==== Proof.LibPlainMatmul.lean ====
/- Two contractions read at coordinates, on the extended reals, for any extents: a `tpu.matmul` with the plain dimension
   numbers (rows × contraction by contraction × columns) into the zero accumulator, at (p, c), is the sum over the
   contraction coordinate k of left(p, k) · right(k, c); and a lane sum of a matrix (a `vector.multi_reduction <add>`
   along axis 1 from the neutral accumulator), at row p, is the sum over k of the matrix at (p, k). Nothing here depends
   on a particular program: a printed record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainMatmul

/-- A matrix product with the plain dimension numbers into the zero accumulator, read at (p, c): the sum over the one
    contraction coordinate of the left operand's row p against the right operand's column c. -/
theorem plain_matmul_zero_apply {M K N : ℕ} {φ₁ φ₂ : FTy} (l : FVec Ideal ⟨2, ![M, K]⟩ φ₁) (r : FVec Ideal ⟨2, ![K, N]⟩ φ₂)
    (p : Fin M) (c : Fin N) :
    FloatOps.matmul (DotDims.plain M K N) none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A lane sum of a matrix from the neutral accumulator, read at row p: the sum over the lane coordinate of the matrix
    at (p, k). The hypotheses are typed as the library's reading of the reduction takes them; a printed body's proof
    arguments are accepted for them. -/
theorem rowSum_apply {A K : ℕ} (src : FVec Ideal ⟨2, ![A, K]⟩ .f32) (acc : BitVec 32)
    (h : (⟨2, ![A, K]⟩ : Shape).Reduces [1] ⟨1, ![A]⟩) (hφ : FKind.Formats .f32) (hacc : acc = FKind.add.neutral .f32 hφ)
    (p : Fin A) :
    multiReduction .add [1] ⟨1, ![A]⟩ src acc h hφ hacc (ix1 p) = ∑ k : Fin K, src (ix2 p k) :=
  (Ideal.multiReduction_add_single src acc h hφ hacc (ix1 p)).trans
    (Finset.sum_congr rfl fun k _ => congrArg src (funext fun a => Fin.ext (by
      match a with
      | ⟨0, _⟩ => rfl
      | ⟨1, _⟩ => rfl)))

end Cert.Lib.PlainMatmul

end
-- ==== Proof.LibDotReads.lean ====
/- Contractions and two column layouts read at coordinates, on the extended reals, for any extents.
   A matrix product into the zero accumulator, read at (p, c), is one sum over the contraction coordinate k:
   of left(k, p) · right(c, k) when the left operand is contracted on its first axis and the right on its last;
   of left(p, k) · right(c, k) when both are contracted on their last axis. The host's product with the plain
   dimension numbers (rows × contraction by contraction × columns), which has no accumulator, is the sum of
   left(p, k) · right(k, c). A vector of a entries cast to an [a, 1] column reads its entry i at (i, 0), and a
   [1, 1] value broadcast along a row of b entries reads its one entry everywhere. Nothing here depends on a
   particular program: a printed record with the same axis lists is the record used here by `rfl`. -/
import Idealize.ShloMosaic.PureOps.Ideal
import Idealize.ShloMosaic.PureOps.Ideal.Laws
import Idealize.ShloMosaic.Lib.ValueIdx
import Idealize.ShloMosaic.Lib.Pipeline.Value

noncomputable section

open scoped BigOperators

open Idealize.ShloMosaic Idealize.ShloMosaic.ValueIdx

namespace Cert.Lib.DotReads

/-- The dimension numbers of a [K, M] matrix contracted on its FIRST axis with an [N, K] matrix contracted on its
    LAST axis, giving [M, N]: result (p, c) pairs the left operand's column p with the right operand's row c. -/
def firstLast (M K N : Nat) : DotDims ⟨2, ![K, M]⟩ ⟨2, ![N, K]⟩ ⟨2, ![M, N]⟩ where
  lhsContracting := [0]
  rhsContracting := [1]
  lhsNonContracting := [1]
  rhsNonContracting := [0]
  lhsBatch := []
  rhsBatch := []
  wf := ⟨rfl, by simp, rfl, by simp, by simp, by simp, by simpa [List.finRange] using List.Perm.swap 0 1 [],
    by simp [List.finRange], rfl, Nat.two_pos, fun b => by fin_cases b <;> rfl⟩

/-- Left contracted on its first axis, right on its last, into the zero accumulator, at (p, c): the sum over k of
    left(k, p) · right(c, k). -/
theorem firstLast_matmul_zero_apply {M K N : ℕ} {φ₁ φ₂ : FTy} (l : FVec Ideal ⟨2, ![K, M]⟩ φ₁) (r : FVec Ideal ⟨2, ![N, K]⟩ φ₂)
    (p : Fin M) (c : Fin N) :
    FloatOps.matmul (firstLast M K N) none l r (constant (F := Ideal) ⟨2, ![M, N]⟩ .f32 0x00000000#32) (ix2 p c)
      = ∑ k : Fin K, l (ix2 k p) * r (ix2 c k) := by
  rw [Ideal.matmul_constant_zero_apply, ← Equiv.sum_comp (contrEquiv1 (firstLast M K N) K rfl rfl).symm]
  refine Finset.sum_congr rfl fun k _ => ?_
  have hk := contrEquiv1_symm_val (firstLast M K N) K rfl rfl k
  have el : (firstLast M K N).lhsIdx (ix2 p c) ((contrEquiv1 (firstLast M K N) K rfl rfl).symm k) = ix2 k p :=
    funext fun a => Fin.ext (by
      match a with
      | ⟨0, _⟩ => exact ((firstLast M K N).lhsIdx_val_of_single rfl _ _).trans hk
      | ⟨1, _⟩ => rfl)
  have er : (firstLast M K N).rhsIdx (ix2 p c) ((contrEquiv1 (firstLast M K N) K rfl rfl).symm k) = ix2 c k :=
    funext fun a => Fin.ext (by
      match a with
      | ⟨0, _⟩ => rfl
      | ⟨1, _⟩ => exact ((firstLast M K N).rhsIdx_val_of_single rfl _ _).trans hk)
  rw [el, er]

/-- Both operands contracted on their last axis, into the zero accumulator, at (p, c): the sum over k of
    left(p, k) · right(c, k). -/
theorem lastLast_matmul_zero_apply {M K N : ℕ} {φ₁ φ₂ : FTy} (l : FVec Ideal ⟨2, ![M, K]⟩ φ₁) (r : FVec Ideal ⟨2, ![N, K]⟩ φ₂)
    (p : Fin M) (c : Fin N) :
    FloatOps.matmul (DotDims.transposedRhs M K N) none l r (constant (F := Ideal) ⟨2, ![M, N]⟩ .f32 0x00000000#32) (ix2 p c)
      = ∑ k : Fin K, l (ix2 p k) * r (ix2 c k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p c) ((contrEquiv1 (DotDims.transposedRhs M K N) K rfl rfl).symm k) = ix2 p k :=
    funext fun a => Fin.ext (by
      match a with
      | ⟨0, _⟩ => rfl
      | ⟨1, _⟩ => exact ((DotDims.transposedRhs M K N).lhsIdx_val_of_single rfl _ _).trans hk)
  have er : (DotDims.transposedRhs M K N).rhsIdx (ix2 p c) ((contrEquiv1 (DotDims.transposedRhs M K N) K rfl rfl).symm k) = ix2 c k :=
    funext fun a => Fin.ext (by
      match a with
      | ⟨0, _⟩ => rfl
      | ⟨1, _⟩ => exact ((DotDims.transposedRhs M K N).rhsIdx_val_of_single rfl _ _).trans hk)
  rw [el, er]

/-- The host's product with the plain dimension numbers, at (p, c): the sum over k of left(p, k) · right(k, c). -/
theorem plain_dotGeneral_apply {M K N : ℕ} {φ₁ φ₂ : FTy} (sched : HostSchedule) (l : FVec Ideal ⟨2, ![M, K]⟩ φ₁)
    (r : FVec Ideal ⟨2, ![K, N]⟩ φ₂) (p : Fin M) (c : Fin N) :
    FloatOps.dotGeneral (DotDims.plain M K N) none sched l r (ix2 p c) = ∑ k : Fin K, l (ix2 p k) * r (ix2 k c) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A vector of a entries cast to an [a, 1] column reads, at (i, u), the vector's entry i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A [1, 1] value broadcast along a row of b entries reads its one entry at every (u, c). -/
theorem broadcastTo_11_1b_apply {α : Type} {b : ℕ} (v : (⟨2, ![1, 1]⟩ : Shape).Idx → α)
    (h : (⟨2, ![1, 1]⟩ : Shape).Broadcasts ⟨2, ![1, b]⟩) (u : Fin 1) (c : Fin b) :
    broadcastTo ⟨2, ![1, b]⟩ v h (ix2 u c) = v (ix2 (0 : Fin 1) (0 : Fin 1)) := by
  refine broadcastTo_apply v h (ix2 u c) (ix2 (0 : Fin 1) (0 : Fin 1)) fun ax => ?_
  match ax with
  | ⟨0, _⟩ => rfl
  | ⟨1, _⟩ => rfl

end Cert.Lib.DotReads

end
-- ==== Proof.LibMaxFold.lean ====
/- General facts about maxima over a finite family of extended reals taken from the bottom, and about the two
   maximum-reductions that compute them: a vector maximum-reduction and a host maximum-reduction along one axis, each
   started from the pattern of -infinity. Nothing here depends on a particular program. -/
import Idealize.ShloMosaic.PureOps.Ideal
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.Lib.MaxFold

/-- The f32 pattern of -infinity denotes the bottom of the extended reals. -/
theorem ofBits_neg_inf : Ideal.ofBits .f32 0xFF800000#32 = ⊥ := by
  simp [Ideal.ofBits, Ideal.ieee]

/-- The maximum of a finite family taken from the bottom lies below an extended real iff every member does: the
    maximum by its universal property, with no order of folding in it. -/
theorem fold_max_univ_le {ι : Type} [Fintype ι] (f : ι → EReal) (x : EReal) :
    (Finset.univ : Finset ι).fold max ⊥ f ≤ x ↔ ∀ k, f k ≤ x := by
  rw [Finset.fold_max_le]
  simp

/-- A vector maximum-reduction along ONE axis from the pattern of -infinity, read on the extended reals at a reduced
    index `j`: the maximum, from the bottom, over that axis's coordinates of the source at `j` with the coordinate
    inserted. The hypotheses are typed as a printed body's proof arguments are. -/
theorem maxRed_apply {s t : Shape} {a : Fin s.rank} (src : FVec Ideal s .f32) (h : s.Reduces [a] t) (hφ : FKind.Formats .f32)
    (hacc : (0xFF800000#32 : BitVec 32) = FKind.maximumf.neutral .f32 hφ) (j : t.Idx) :
    multiReduction .maximumf [a] t src 0xFF800000#32 h hφ hacc j
      = (Finset.univ : Finset (Fin (s.size a))).fold max ⊥ (src ∘ h.lift j) := by
  rw [Ideal.multiReduction_maximumf_single]
  show Finset.fold max (Ideal.ofBits .f32 0xFF800000#32) _ _ = _
  rw [ofBits_neg_inf]

/-- The host's one-operand reduction with a maximum body along ONE axis from the constant -infinity, read on the
    extended reals at a reduced index `j`: the same maximum. -/
theorem hostMaxRed_apply {s t u : Shape} {a : Fin s.rank} (x : FVec Ideal s .f32) (h' : s.ReducesTo [a] t) (h : s.Reduces [a] t)
    (hu : 0 < u.numel) (j : t.Idx) :
    Host.reduce FloatOps.maximumf x (constant (F := Ideal) u .f32 0xFF800000#32) h' hu j
      = (Finset.univ : Finset (Fin (s.size a))).fold max ⊥ (x ∘ h.lift j) := by
  rw [Host.reduce_eq_fold_single FloatOps.maximumf x _ h' h hu]
  show Finset.fold max (Ideal.ofBits .f32 0xFF800000#32) _ _ = _
  rw [ofBits_neg_inf]

end Cert.Lib.MaxFold

end
-- ==== Proof.LibBroadcastReads.lean ====
/- Small layout reads at coordinates, for any extents and any element type: a column `[a, 1]` broadcast along the lanes
   to `[a, b]` (a vector `broadcast` and a host `broadcast_in_dim` with dims [0, 1]), a row `[1, b]` broadcast down the
   rows by a host `broadcast_in_dim` with dims [0, 1], a vector `[a]` made a column `[a, 1]` (dims [0]) and a vector `[b]`
   made a row `[1, b]` (dims [1]). Each reads the operand at the coordinate that survives; the unit axis reads at 0.
   Nothing here depends on a particular program. -/
import Idealize.ShloMosaic.Lib.Pipeline.Value
import Idealize.ShloMosaic.Lib.ValueIdx

noncomputable section

open Idealize.ShloMosaic Idealize.ShloMosaic.ValueIdx

namespace Cert.Lib.BroadcastReads

variable {α : Type}

/-- A vector broadcast of a column `[a, 1]` to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast (dims [0, 1]) of a column `[a, 1]` to `[a, b]` reads, at `(p, c)`, the column at row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast (dims [0, 1]) of a row `[1, b]` to `[a, b]` reads, at `(p, c)`, the row at column `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` made a column `[a, 1]` by a host broadcast (dims [0]) reads, at `(p, z)`, the vector at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) := by
  refine broadcastInDim_apply _ h v (ix2 p z) (ix1 p) fun ax => ?_
  match ax with
  | ⟨0, _⟩ =>
    show p.val = if a = 1 then 0 else p.val
    split
    · have := p.isLt; omega
    · rfl

/-- A vector `[b]` made a row `[1, b]` by a host broadcast (dims [1]) reads, at `(z, c)`, the vector at `c`. -/
theorem broadcastInDim_b_1b_apply {b : ℕ} (v : (⟨1, ![b]⟩ : Shape).Idx → α)
    (h : (⟨1, ![b]⟩ : Shape).BroadcastsInDim ⟨2, ![1, b]⟩ ![1]) (z : Fin 1) (c : Fin b) :
    broadcastInDim ⟨2, ![1, b]⟩ ![1] h v (ix2 z c) = v (ix1 c) := by
  refine broadcastInDim_apply _ h v (ix2 z c) (ix1 c) fun ax => ?_
  match ax with
  | ⟨0, _⟩ =>
    show c.val = if b = 1 then 0 else c.val
    split
    · have := c.isLt; omega
    · rfl

end Cert.Lib.BroadcastReads

end
-- ==== Proof.LibColumnReads.lean ====
/- Column layouts read at coordinates, for any extents and any element type: a vector `[a]` cast to a column `[a, 1]`
   and back, one column of an `[a, b]` array taken as a unit-stride slice `[a, 1]`, and `N` columns `[a, 1]` laid side by
   side along axis 1 into `[a, N]`.  Each reads the operand at the coordinates that survive, the unit axis at 0.
   Nothing here depends on a particular program. -/
import Idealize.ShloMosaic.Lib.Pipeline.Value
import Idealize.ShloMosaic.Lib.ValueIdx

noncomputable section

open Idealize.ShloMosaic Idealize.ShloMosaic.ValueIdx

namespace Cert.Lib.ColumnReads

variable {α : Type}

/-- A vector `[a]` cast to a column `[a, 1]` reads, at `(p, z)`, the vector at `p`: both sit at row-major position `p`. -/
theorem shapeCast_a_a1_apply {a : ℕ} (v : (⟨1, ![a]⟩ : Shape).Idx → α) (h : (⟨1, ![a]⟩ : Shape).ShapeCasts ⟨2, ![a, 1]⟩)
    (p : Fin a) (z : Fin 1) : shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- A column `[a, 1]` cast to a vector `[a]` reads, at `p`, the column at `(p, 0)`. -/
theorem shapeCast_a1_a_apply {a : ℕ} (v : (⟨2, ![a, 1]⟩ : Shape).Idx → α) (h : (⟨2, ![a, 1]⟩ : Shape).ShapeCasts ⟨1, ![a]⟩)
    (p : Fin a) : shapeCast ⟨1, ![a]⟩ v h (ix1 p) = v (ix2 p (0 : Fin 1)) := by
  refine shapeCast_apply v h (ix1 p) (ix2 p (0 : Fin 1)) ?_
  rw [Shape.rowMajor_val_one, Shape.rowMajor_val_two]
  show p.val * 1 + 0 = p.val
  omega

/-- Column `o` of an `[a, b]` array, taken as the unit-stride slice `[a, 1]` at offsets `(0, o)`, reads at `(p, z)` the
    array at `(p, o)`. -/
theorem slice_column_apply {a b : ℕ} (o : ℕ) (ho : o < b) (x : (⟨2, ![a, b]⟩ : Shape).Idx → α)
    (h : (⟨2, ![a, b]⟩ : Shape).Slices ![0, o] ⟨2, ![a, 1]⟩) (p : Fin a) (z : Fin 1) :
    extractStridedSlice ⟨2, ![a, 1]⟩ ![0, o] x h (ix2 p z) = x (ix2 p (⟨o, ho⟩ : Fin b)) := by
  refine extractStridedSlice_apply _ x h (ix2 p z) (ix2 p (⟨o, ho⟩ : Fin b)) fun ax => ?_
  match ax with
  | ⟨0, _⟩ => show p.val = 0 + p.val; omega
  | ⟨1, _⟩ => show o = o + z.val; have := z.isLt; omega

/-- `N` columns `[a, 1]` laid side by side along axis 1 read, at `(p, n)`, column `n` at `(p, 0)`. -/
theorem concat_columns_apply {a N : ℕ} (f : Fin N → ((⟨2, ![a, 1]⟩ : Shape).Idx → α))
    (h : Shape.Concatenates ((List.ofFn fun n : Fin N => (⟨⟨2, ![a, 1]⟩, f n⟩ : (s : Shape) × (s.Idx → α))).map (·.1))
      ⟨2, ![a, N]⟩ (1 : Fin 2))
    (p : Fin a) (n : Fin N) :
    concatenate ⟨2, ![a, N]⟩ (1 : Fin 2) (List.ofFn fun n : Fin N => (⟨⟨2, ![a, 1]⟩, f n⟩ : (s : Shape) × (s.Idx → α))) h (ix2 p n)
      = f n (ix2 p (0 : Fin 1)) := by
  refine concatenate_ofFn_unit_apply (t := ⟨2, ![a, N]⟩) (s₁ := ⟨2, ![a, 1]⟩) (1 : Fin 2) f h rfl rfl (ix2 p n) n rfl
    (ix2 p (0 : Fin 1)) fun b hb => ?_
  match b with
  | ⟨0, _⟩ => rfl
  | ⟨1, _⟩ => exact absurd rfl hb

end Cert.Lib.ColumnReads

end
-- ==== Proof.KerOps.lean ====
/- The kernel's tile operations read row by row, on the extended reals, for any extents.

   A tile is a matrix of R rows.  Each composite below is read at (r, c) as a function of row r of its operands only:
   the dense layer (a product with the plain dimension numbers into the zero accumulator, plus a bias row broadcast
   down the rows), the normalisation (a lane sum of squares, floored, its reciprocal square root broadcast along the
   lanes), the scores (a product contracting both last axes, times a splat constant), the softmax (a lane maximum from
   -infinity subtracted before the exponential, the exponentials over their lane sum) and the mix of value rows (a
   plain product).  Each is the row function of Proof/RowSpec.lean of the same name. -/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«173738_j10161892623139_2_alg».proof.Proof.RowSpec
import proofs.«173738_j10161892623139_2_alg».proof.Proof.LibPlainMatmul
import proofs.«173738_j10161892623139_2_alg».proof.Proof.LibDotReads
import proofs.«173738_j10161892623139_2_alg».proof.Proof.LibMaxFold
import proofs.«173738_j10161892623139_2_alg».proof.Proof.LibBroadcastReads
import proofs.«173738_j10161892623139_2_alg».proof.Proof.LibColumnReads

noncomputable section

open scoped BigOperators

open Idealize.ShloMosaic Idealize.ShloMosaic.ValueIdx Cert.Attn

namespace Cert.Attn.Ker

/-- The dense layer of a tile at (r, c): row r of the tile against column c of the weights, plus the bias at c. -/
theorem projTile_apply {R D H : ℕ} {φ₁ φ₂ : FTy} (X : FVec Ideal ⟨2, ![R, D]⟩ φ₁) (W : FVec Ideal ⟨2, ![D, H]⟩ φ₂)
    (bias : FVec Ideal ⟨2, ![1, H]⟩ .f32) (hb : (⟨2, ![1, H]⟩ : Shape).Broadcasts ⟨2, ![R, H]⟩) (r : Fin R) (c : Fin H) :
    addf (matmul (DotDims.plain R D H) none X W (constant (F := Ideal) ⟨2, ![R, H]⟩ .f32 0x00000000#32))
        (broadcastTo ⟨2, ![R, H]⟩ bias hb) (ix2 r c)
      = projRow (fun d => X (ix2 r d)) (fun d h => W (ix2 d h)) (fun h => bias (ix2 (0 : Fin 1) h)) c := by
  rw [addf_apply, broadcastTo_1b_ab_apply]
  show FloatOps.matmul (DotDims.plain R D H) none X W _ (ix2 r c) + _ = _
  rw [Cert.Lib.PlainMatmul.plain_matmul_zero_apply]
  rfl

/-- The normalisation of a tile at (r, c): entry (r, c) times the reciprocal square root of row r's floored squared
    length. -/
theorem normTile_aux {R H : ℕ} (P : FVec Ideal ⟨2, ![R, H]⟩ .f32)
    (hred : (⟨2, ![R, H]⟩ : Shape).Reduces [1] ⟨1, ![R]⟩) (hφ : FKind.Formats .f32)
    (hacc : (0x00000000#32 : BitVec 32) = FKind.add.neutral .f32 hφ)
    (hc : (⟨1, ![R]⟩ : Shape).ShapeCasts ⟨2, ![R, 1]⟩) (hb : (⟨2, ![R, 1]⟩ : Shape).Broadcasts ⟨2, ![R, H]⟩)
    (r : Fin R) (c : Fin H) :
    mulf P (broadcastTo ⟨2, ![R, H]⟩ (rsqrt (maximumf
        (shapeCast ⟨2, ![R, 1]⟩ (multiReduction .add [1] ⟨1, ![R]⟩ (mulf P P) 0x00000000#32 hred hφ hacc) hc)
        (broadcast ⟨2, ![R, 1]⟩ (Scalar.ofBits (F := Ideal) .f32 0x2B8CBCCC#32)))) hb) (ix2 r c)
      = normRow (fun k => P (ix2 r k)) c := by
  rw [mulf_apply, Cert.Lib.BroadcastReads.broadcastTo_a1_ab_apply]
  show P (ix2 r c) * Ideal.rsqrt (max (shapeCast ⟨2, ![R, 1]⟩ _ hc (ix2 r (0 : Fin 1))) (Ideal.ofBits .f32 0x2B8CBCCC#32)) = _
  rw [Cert.Lib.ColumnReads.shapeCast_a_a1_apply, Cert.Lib.PlainMatmul.rowSum_apply]
  rfl

/-- The scores of a tile of queries at (r, j): row r of the queries against key row j, times the splat constant. -/
theorem scoreTile_apply {R H L : ℕ} {φ₁ φ₂ : FTy} (Q : FVec Ideal ⟨2, ![R, H]⟩ φ₁) (K : FVec Ideal ⟨2, ![L, H]⟩ φ₂)
    (r : Fin R) (j : Fin L) :
    mulf (matmul (DotDims.transposedRhs R H L) none Q K (constant (F := Ideal) ⟨2, ![R, L]⟩ .f32 0x00000000#32))
        (broadcast ⟨2, ![R, L]⟩ (Scalar.ofBits (F := Ideal) .f32 0x3D000000#32)) (ix2 r j)
      = scoreRow (fun h => Q (ix2 r h)) (fun k h => K (ix2 k h)) j := by
  rw [mulf_apply]
  show FloatOps.matmul (DotDims.transposedRhs R H L) none Q K _ (ix2 r j) * _ = _
  rw [Cert.Lib.DotReads.lastLast_matmul_zero_apply]
  rfl

/-- The lane maximum of a tile from -infinity, made a column and broadcast back, at (r, j): the maximum of row r. -/
theorem maxTile_aux {R L : ℕ} (S : FVec Ideal ⟨2, ![R, L]⟩ .f32)
    (hred : (⟨2, ![R, L]⟩ : Shape).Reduces [1] ⟨1, ![R]⟩) (hφ : FKind.Formats .f32)
    (hacc : (0xFF800000#32 : BitVec 32) = FKind.maximumf.neutral .f32 hφ)
    (hc : (⟨1, ![R]⟩ : Shape).ShapeCasts ⟨2, ![R, 1]⟩) (hb : (⟨2, ![R, 1]⟩ : Shape).Broadcasts ⟨2, ![R, L]⟩)
    (r : Fin R) (j : Fin L) :
    broadcastTo ⟨2, ![R, L]⟩ (shapeCast ⟨2, ![R, 1]⟩
        (multiReduction .maximumf [1] ⟨1, ![R]⟩ S 0xFF800000#32 hred hφ hacc) hc) hb (ix2 r j)
      = maxRow (fun k => S (ix2 r k)) := by
  rw [Cert.Lib.BroadcastReads.broadcastTo_a1_ab_apply, Cert.Lib.ColumnReads.shapeCast_a_a1_apply,
    Cert.Lib.MaxFold.maxRed_apply]
  unfold maxRow
  refine congrArg (fun f => Finset.fold max ⊥ f Finset.univ) (funext fun k => congrArg S (funext fun a => Fin.ext ?_))
  match a with
  | ⟨0, _⟩ => rfl
  | ⟨1, _⟩ => rfl

/-- The softmax of a tile at (r, j): the softmax of row r, at j. -/
theorem softmaxTile_aux {R L : ℕ} (S : FVec Ideal ⟨2, ![R, L]⟩ .f32)
    (hred : (⟨2, ![R, L]⟩ : Shape).Reduces [1] ⟨1, ![R]⟩) (hφ : FKind.Formats .f32)
    (haccM : (0xFF800000#32 : BitVec 32) = FKind.maximumf.neutral .f32 hφ)
    (haccA : (0x00000000#32 : BitVec 32) = FKind.add.neutral .f32 hφ)
    (hc : (⟨1, ![R]⟩ : Shape).ShapeCasts ⟨2, ![R, 1]⟩) (hb : (⟨2, ![R, 1]⟩ : Shape).Broadcasts ⟨2, ![R, L]⟩)
    (r : Fin R) (j : Fin L) :
    divf (exp (subf S (broadcastTo ⟨2, ![R, L]⟩ (shapeCast ⟨2, ![R, 1]⟩
          (multiReduction .maximumf [1] ⟨1, ![R]⟩ S 0xFF800000#32 hred hφ haccM) hc) hb)))
        (broadcastTo ⟨2, ![R, L]⟩ (shapeCast ⟨2, ![R, 1]⟩
          (multiReduction .add [1] ⟨1, ![R]⟩ (exp (subf S (broadcastTo ⟨2, ![R, L]⟩ (shapeCast ⟨2, ![R, 1]⟩
            (multiReduction .maximumf [1] ⟨1, ![R]⟩ S 0xFF800000#32 hred hφ haccM) hc) hb))) 0x00000000#32 hred hφ haccA) hc) hb)
        (ix2 r j)
      = softmaxRow (fun k => S (ix2 r k)) j := by
  have hexp : ∀ k : Fin L, exp (subf S (broadcastTo ⟨2, ![R, L]⟩ (shapeCast ⟨2, ![R, 1]⟩
      (multiReduction .maximumf [1] ⟨1, ![R]⟩ S 0xFF800000#32 hred hφ haccM) hc) hb)) (ix2 r k)
        = expRow (fun k => S (ix2 r k)) k := fun k => by
    show Ideal.exp (S (ix2 r k) - broadcastTo ⟨2, ![R, L]⟩ _ hb (ix2 r k)) = _
    rw [maxTile_aux]
    rfl
  rw [divf_apply, hexp, Cert.Lib.BroadcastReads.broadcastTo_a1_ab_apply, Cert.Lib.ColumnReads.shapeCast_a_a1_apply,
    Cert.Lib.PlainMatmul.rowSum_apply]
  unfold softmaxRow
  exact congrArg (Ideal.div _) (Finset.sum_congr rfl fun k _ => hexp k)

/-- The normalisation of a tile at (r, c), with the accumulator's neutrality witnessed the way a printed body
    witnesses it. -/
theorem normTile_apply {R H : ℕ} (P : FVec Ideal ⟨2, ![R, H]⟩ .f32)
    (hred : (⟨2, ![R, H]⟩ : Shape).Reduces [1] ⟨1, ![R]⟩) (hφ : FKind.Formats .f32)
    (hacc : (0x00000000#32 : BitVec 32) = 0x00000000#32)
    (hc : (⟨1, ![R]⟩ : Shape).ShapeCasts ⟨2, ![R, 1]⟩) (hb : (⟨2, ![R, 1]⟩ : Shape).Broadcasts ⟨2, ![R, H]⟩)
    (r : Fin R) (c : Fin H) :
    mulf P (broadcastTo ⟨2, ![R, H]⟩ (rsqrt (maximumf
        (shapeCast ⟨2, ![R, 1]⟩ (multiReduction .add [1] ⟨1, ![R]⟩ (mulf P P) 0x00000000#32 hred hφ hacc) hc)
        (broadcast ⟨2, ![R, 1]⟩ (Scalar.ofBits (F := Ideal) .f32 0x2B8CBCCC#32)))) hb) (ix2 r c)
      = normRow (fun k => P (ix2 r k)) c :=
  normTile_aux P hred hφ hacc hc hb r c

/-- The softmax of a tile at (r, j), with the accumulators' neutrality witnessed the way a printed body witnesses it. -/
theorem softmaxTile_apply {R L : ℕ} (S : FVec Ideal ⟨2, ![R, L]⟩ .f32)
    (hred : (⟨2, ![R, L]⟩ : Shape).Reduces [1] ⟨1, ![R]⟩) (hφ : FKind.Formats .f32)
    (haccM : (0xFF800000#32 : BitVec 32) = 0xFF800000#32)
    (haccA : (0x00000000#32 : BitVec 32) = 0x00000000#32)
    (hc : (⟨1, ![R]⟩ : Shape).ShapeCasts ⟨2, ![R, 1]⟩) (hb : (⟨2, ![R, 1]⟩ : Shape).Broadcasts ⟨2, ![R, L]⟩)
    (r : Fin R) (j : Fin L) :
    divf (exp (subf S (broadcastTo ⟨2, ![R, L]⟩ (shapeCast ⟨2, ![R, 1]⟩
          (multiReduction .maximumf [1] ⟨1, ![R]⟩ S 0xFF800000#32 hred hφ haccM) hc) hb)))
        (broadcastTo ⟨2, ![R, L]⟩ (shapeCast ⟨2, ![R, 1]⟩
          (multiReduction .add [1] ⟨1, ![R]⟩ (exp (subf S (broadcastTo ⟨2, ![R, L]⟩ (shapeCast ⟨2, ![R, 1]⟩
            (multiReduction .maximumf [1] ⟨1, ![R]⟩ S 0xFF800000#32 hred hφ haccM) hc) hb))) 0x00000000#32 hred hφ haccA) hc) hb)
        (ix2 r j)
      = softmaxRow (fun k => S (ix2 r k)) j :=
  softmaxTile_aux S hred hφ haccM haccA hc hb r j

/-- The mix of value rows by a tile of weights at (r, h): row r of the weights against column h of the values. -/
theorem mixTile_apply {R L H : ℕ} {φ₁ φ₂ : FTy} (A : FVec Ideal ⟨2, ![R, L]⟩ φ₁) (V : FVec Ideal ⟨2, ![L, H]⟩ φ₂)
    (r : Fin R) (h : Fin H) :
    matmul (DotDims.plain R L H) none A V (constant (F := Ideal) ⟨2, ![R, H]⟩ .f32 0x00000000#32) (ix2 r h)
      = mixRow (fun k => A (ix2 r k)) (fun k c => V (ix2 k c)) h :=
  Cert.Lib.PlainMatmul.plain_matmul_zero_apply A V r h

end Cert.Attn.Ker

end
-- ==== Proof.TileKV.lean ====
/- What a grid point of the key/value projection leaves in its two output tiles, entry by entry.

   The point's tile of X is 256 rows; the key tile's entry (r, c) is the normalised projection of row r through the key
   weights and bias, read at c, and the value tile's entry likewise through the value weights and bias.  The changes of
   float format in the body are the identity on the extended reals, and the casts between a [256, 1024] tile and its
   [1, 256, 1024] block move no entry. -/
import proofs.«173738_j10161892623139_2_alg».proof.Proof.Gen.KernelIdeal.Frame
import proofs.«173738_j10161892623139_2_alg».proof.Proof.KerOps

noncomputable section

open scoped BigOperators

open Idealize.ShloMosaic Idealize.ShloMosaic.ValueIdx Cert.Attn

namespace Cert.Attn.KV

open Cert.KernelIdeal Cert.KernelIdeal.Gen

theorem hz3 : (![0, 0, 0] : Fin 3 → Nat) = fun _ => 0 := funext fun a => by fin_cases a <;> rfl
theorem hz2 : (![0, 0] : Fin 2 → Nat) = fun _ => 0 := funext fun a => by fin_cases a <;> rfl

/-- The normalised projection of row r of a [1, 256, 1024] block through a weight matrix and a [1, 1024] bias row. -/
def npTileRow (x : Vec Ideal S1x256x1024 .f32) (w : Vec Ideal S1024x1024 .bf16) (b : Vec Ideal S1x1024 .f32)
    (r : Fin 256) : Fin 1024 → EReal :=
  normRow (projRow (fun d => x (ix3 (0 : Fin 1) r d)) (fun d h => w (ix2 d h)) (fun h => b (ix2 (0 : Fin 1) h)))

/-- The key payload at (z, r, c). -/
theorem keyPayload_apply (v0 : Vec Ideal S1x256x1024 .f32) (v3 : Vec Ideal S1024x1024 .bf16) (v5 : Vec Ideal S1x1024 .f32)
    (z : Fin 1) (r : Fin 256) (c : Fin 1024) :
    k0_pay3 (F := Ideal) v0 v3 v5 (ix3 z r c) = npTileRow v0 v3 v5 r c := by
  unfold k0_pay3 k0_pay2 npTileRow
  dsimp only
  rw [shapeCast_ab_1ab_apply, truncf_apply, Ker.normTile_apply]
  refine congrArg (fun p => normRow p c) (funext fun k => ?_)
  refine (Ker.projTile_apply (R := 256) (D := 1024) (H := 1024) _ _ _ _ r k).trans ?_
  simp only [truncf_apply, shapeCast_1ab_ab_apply, shapeCast_self]

/-- The value payload at (z, r, c). -/
theorem valuePayload_apply (v0 : Vec Ideal S1x256x1024 .f32) (v22 : Vec Ideal S1024x1024 .bf16) (v24 : Vec Ideal S1x1024 .f32)
    (z : Fin 1) (r : Fin 256) (c : Fin 1024) :
    k0_pay1 (F := Ideal) (k0_pay4 v0 v22 v24) (ix3 z r c) = npTileRow v0 v22 v24 r c := by
  unfold k0_pay1 k0_pay4 k0_pay2 npTileRow
  dsimp only
  rw [shapeCast_ab_1ab_apply, truncf_apply, Ker.normTile_apply]
  refine congrArg (fun p => normRow p c) (funext fun k => ?_)
  refine (Ker.projTile_apply (R := 256) (D := 1024) (H := 1024) _ _ _ _ r k).trans ?_
  simp only [truncf_apply, shapeCast_1ab_ab_apply, shapeCast_self]

/-- The key tile after the body: one store of the whole block. -/
theorem keyTile_apply (x0 : Vec Ideal S1x256x1024 .f32) (x1 : Vec Ideal S1024x1024 .bf16) (x2 : Vec Ideal S1x1024 .f32)
    (x3 : Vec Ideal S1024x1024 .bf16) (x4 : Vec Ideal S1x1024 .f32) (z : Fin 1) (r : Fin 256) (c : Fin 1024) :
    out0_5 (F := Ideal) x0 x1 x2 x3 x4 (ix3 z r c) = npTileRow x0 x1 x2 r c := by
  unfold out0_5
  rw [View.canon_unit_zero hz3]
  simp only [View.ld_unit_zero (S := S1x256x1024) hz3, View.ld_unit_zero (S := S1024x1024) hz2,
    View.ld_unit_zero (S := S1x1024) hz2]
  exact keyPayload_apply x0 x1 x2 z r c

/-- The value tile after the body: one store of the whole block. -/
theorem valueTile_apply (x0 : Vec Ideal S1x256x1024 .f32) (x1 : Vec Ideal S1024x1024 .bf16) (x2 : Vec Ideal S1x1024 .f32)
    (x3 : Vec Ideal S1024x1024 .bf16) (x4 : Vec Ideal S1x1024 .f32) (z : Fin 1) (r : Fin 256) (c : Fin 1024) :
    out0_6 (F := Ideal) x0 x1 x2 x3 x4 (ix3 z r c) = npTileRow x0 x3 x4 r c := by
  unfold out0_6
  rw [View.canon_unit_zero hz3]
  simp only [View.ld_unit_zero (S := S1x256x1024) hz3, View.ld_unit_zero (S := S1024x1024) hz2,
    View.ld_unit_zero (S := S1x1024) hz2]
  exact valuePayload_apply x0 x3 x4 z r c

end Cert.Attn.KV

end
-- ==== Proof.ArraySpec.lean ====
/- The two result arrays of the attention layer as functions of the argument arrays, index by index.

   Arrays are read by coordinates: row (b, l) of a rank-3 array is the function of its last coordinate.  Keys and
   values are the normalised projections of the rows of X; a query is the normalised projection of a row of Y; the
   attention weights of query (b, i) are the softmax of its scores against the keys of batch b, and the output row
   mixes the values of batch b with those weights (Proof/RowSpec.lean has each row function). -/
import proofs.«173738_j10161892623139_2_alg».proof.Proof.RowSpec
import Idealize.ShloMosaic.Lib.ValueIdx

noncomputable section

open scoped BigOperators

open Idealize.ShloMosaic Idealize.ShloMosaic.ValueIdx

namespace Cert.Attn

/-- A rank-3, rank-2 and rank-1 array of extended reals, by extents. -/
abbrev T3 (a b c : ℕ) := (⟨3, ![a, b, c]⟩ : Shape).Idx → EReal
abbrev T2 (a b : ℕ) := (⟨2, ![a, b]⟩ : Shape).Idx → EReal
abbrev T1 (a : ℕ) := (⟨1, ![a]⟩ : Shape).Idx → EReal

/-- Row (i, j) of a rank-3 array. -/
def rowOf {a b c : ℕ} (A : T3 a b c) (i : Fin a) (j : Fin b) : Fin c → EReal := fun k => A (ix3 i j k)

/-- The rows of batch i of a rank-3 array. -/
def rowsOf {a b c : ℕ} (A : T3 a b c) (i : Fin a) : Fin b → Fin c → EReal := fun j => rowOf A i j

/-- A matrix by coordinates. -/
def matOf {a b : ℕ} (W : T2 a b) : Fin a → Fin b → EReal := fun i j => W (ix2 i j)

/-- A vector by its coordinate. -/
def vecOf {a : ℕ} (v : T1 a) : Fin a → EReal := fun i => v (ix1 i)

/-- The one row of a [1, a] array by its coordinate. -/
def vecOfRow {a : ℕ} (v : T2 1 a) : Fin a → EReal := fun i => v (ix2 (0 : Fin 1) i)

/-- The normalised projections of the rows of batch b. -/
def npRows {B L D H : ℕ} (A : T3 B L D) (W : Fin D → Fin H → EReal) (bias : Fin H → EReal) (b : Fin B) :
    Fin L → Fin H → EReal :=
  fun l => normRow (projRow (rowOf A b l) W bias)

/-- The array of normalised projections: entry (b, l, h). -/
def npArr {B L D H : ℕ} (A : T3 B L D) (W : Fin D → Fin H → EReal) (bias : Fin H → EReal) : T3 B L H :=
  fun i => npRows A W bias (i 0) (i 1) (i 2)

/-- The attention weights: entry (b, i, j) is the softmax weight of query row (b, i) on key row (b, j). -/
def attArr {B Lq Lk D H : ℕ} (Y : T3 B Lq D) (Wq : Fin D → Fin H → EReal) (bq : Fin H → EReal) (K : T3 B Lk H) :
    T3 B Lq Lk :=
  fun i => attRow (npRows Y Wq bq (i 0) (i 1)) (rowsOf K (i 0)) (i 2)

/-- The output: entry (b, i, h) of the normalised sum of query row (b, i) and its normalised mix of the values. -/
def crossArr {B Lq Lk D H : ℕ} (Y : T3 B Lq D) (Wq : Fin D → Fin H → EReal) (bq : Fin H → EReal) (K V : T3 B Lk H) :
    T3 B Lq H :=
  fun i => crossRow (npRows Y Wq bq (i 0) (i 1)) (rowsOf K (i 0)) (rowsOf V (i 0)) (i 2)

/-- The attention weights as a function of the six arrays they depend on. -/
def fullAtt {B Lq Lk D H : ℕ} (Y : T3 B Lq D) (X : T3 B Lk D) (Wq : T2 D H) (bq : T1 H) (Wk : T2 D H) (bk : T1 H) :
    T3 B Lq Lk :=
  attArr Y (matOf Wq) (vecOf bq) (npArr X (matOf Wk) (vecOf bk))

/-- The output as a function of the eight argument arrays. -/
def fullCross {B Lq Lk D H : ℕ} (Y : T3 B Lq D) (X : T3 B Lk D) (Wq : T2 D H) (bq : T1 H) (Wk : T2 D H) (bk : T1 H)
    (Wv : T2 D H) (bv : T1 H) : T3 B Lq H :=
  crossArr Y (matOf Wq) (vecOf bq) (npArr X (matOf Wk) (vecOf bk)) (npArr X (matOf Wv) (vecOf bv))

/-- The rows of batch b of the array of normalised projections are the normalised projections of batch b. -/
theorem rowsOf_npArr {B L D H : ℕ} (A : T3 B L D) (W : Fin D → Fin H → EReal) (bias : Fin H → EReal) (b : Fin B) :
    rowsOf (npArr A W bias) b = npRows A W bias b := rfl

end Cert.Attn

end
-- ==== Proof.ArrKV.lean ====
/- The key and value arrays after the first region, as whole-array functions of what the region finds.

   The region's 128 grid points are (batch, row tile): point t writes back rows 256·i … 256·i + 255 of batch b of each
   output array, where (b, i) is its block index, computed from the same rows of X and from the whole weight matrix and
   bias row.  The relations between the printed index maps are decided once over the grid; each input block is then
   read at the coordinates the output block's rectangle names; every index of an output array lies in the block of the
   point (b, row / 256); so each output array ends as the array of normalised projections. -/
import proofs.«173738_j10161892623139_2_alg».proof.Proof.Gen.KernelIdeal.Frame
import proofs.«173738_j10161892623139_2_alg».proof.Proof.TileKV
import proofs.«173738_j10161892623139_2_alg».proof.Proof.ArraySpec
import Idealize.ShloMosaic.Lib.Pipeline.Value

set_option maxRecDepth 16384

noncomputable section

open scoped BigOperators

open Idealize.ShloMosaic Idealize.ShloMosaic.TcCoe Idealize.ShloMosaic.ValueIdx Idealize.SL.Sem Cert.Attn
open Idealize.ShloMosaic.Pipeline (Dat)

namespace Cert.Attn.KVArr

open Cert.KernelIdeal Cert.KernelIdeal.Gen Cert.Attn.KV

variable (V : (c : Dev nD) → (b : Ref sig .tc) → Buf (Elt Ideal) ((c : Thread nD τ).loc b))

/-- The arrays the region reads, as the region finds them. -/
abbrev arrX (c : Dev nD) : T3 16 2048 1024 := V c main_arg1
abbrev arrWk (c : Dev nD) : T2 1024 1024 := V c main_v4
abbrev arrBk (c : Dev nD) : T2 1 1024 := V c main_v1
abbrev arrWv (c : Dev nD) : T2 1024 1024 := V c main_v5
abbrev arrBv (c : Dev nD) : T2 1 1024 := V c main_v2

/-- What the key array ends holding, and the value array. -/
abbrev keyG (c : Dev nD) : T3 16 2048 1024 := npArr (arrX V c) (matOf (arrWk V c)) (vecOfRow (arrBk V c))
abbrev valG (c : Dev nD) : T3 16 2048 1024 := npArr (arrX V c) (matOf (arrWv V c)) (vecOfRow (arrBv V c))

/-- The printed index maps, decided over the grid: the tile of X and both output tiles move together over (batch,
    row tile) and sit at lane block 0; the weights and biases stay at block (0, 0). -/
theorem idx_facts : ∀ t : Fin cfg0.N,
    win0_0.index t (0 : Fin 3) = win0_5.index t (0 : Fin 3) ∧ win0_0.index t (1 : Fin 3) = win0_5.index t (1 : Fin 3)
    ∧ win0_0.index t (2 : Fin 3) = 0
    ∧ win0_6.index t (0 : Fin 3) = win0_5.index t (0 : Fin 3) ∧ win0_6.index t (1 : Fin 3) = win0_5.index t (1 : Fin 3)
    ∧ win0_6.index t (2 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) ≤ 15 ∧ win0_5.index t (1 : Fin 3) ≤ 7 :=
  (by decide +kernel : ∀ t : Fin grid0.N, _)

/-- Every (batch, row tile) is some point's block. -/
theorem idx_onto : ∀ (q0 : Fin 16) (q1 : Fin 8), ∃ t : Fin cfg0.N, win0_5.index t = ![q0.val, q1.val, 0] :=
  (by decide +kernel : ∀ (q0 : Fin 16) (q1 : Fin 8), ∃ t : Fin grid0.N, win0_5.index t = ![q0.val, q1.val, 0])

/-- The tile of X at point t, read at y, is X at the array index the output block's rectangle gives y. -/
theorem xBlock_apply (c : Dev nD) (t : Fin cfg0.N) (y : S1x256x1024.Idx) (k : S16x2048x1024.Idx)
    (h0 : (k 0).val = win0_5.index t (0 : Fin 3) + (y 0).val)
    (h1 : (k 1).val = win0_5.index t (1 : Fin 3) * 256 + (y 1).val) (h2 : (k 2).val = (y 2).val) :
    (iblk0 V c 0 t : Vec Ideal S1x256x1024 .f32) y = arrX V c k := by
  obtain ⟨e0, e1, e2, -⟩ := idx_facts t
  unfold iblk0
  rw [View.read_apply]
  show V c main_arg1 _ = V c main_arg1 k
  congr 1
  funext a
  apply Fin.ext
  match a with
  | ⟨0, _⟩ => show win0_0.index t (0 : Fin 3) * 1 + 1 * (y 0).val = (k 0).val; omega
  | ⟨1, _⟩ => show win0_0.index t (1 : Fin 3) * 256 + 1 * (y 1).val = (k 1).val; omega
  | ⟨2, _⟩ => show win0_0.index t (2 : Fin 3) * 1024 + 1 * (y 2).val = (k 2).val; omega

/-- The key weights' block at any point is the whole matrix. -/
theorem wkBlock_eq (c : Dev nD) (t : Fin cfg0.N) : (iblk0 V c 1 t : Vec Ideal S1024x1024 .bf16) = arrWk V c := by
  obtain ⟨-, -, -, -, -, -, -, e0, e1, -⟩ := idx_facts t
  refine funext fun (y : S1024x1024.Idx) => ?_
  unfold iblk0
  rw [View.read_apply]
  show V c main_v4 _ = V c main_v4 y
  congr 1
  funext a
  apply Fin.ext
  match a with
  | ⟨0, _⟩ => show win0_1.index t (0 : Fin 2) * 1024 + 1 * (y 0).val = (y 0).val; omega
  | ⟨1, _⟩ => show win0_1.index t (1 : Fin 2) * 1024 + 1 * (y 1).val = (y 1).val; omega

/-- The key bias's block at any point is the whole row. -/
theorem bkBlock_eq (c : Dev nD) (t : Fin cfg0.N) : (iblk0 V c 2 t : Vec Ideal S1x1024 .f32) = arrBk V c := by
  obtain ⟨-, -, -, -, -, -, -, -, -, e0, e1, -⟩ := idx_facts t
  refine funext fun (y : S1x1024.Idx) => ?_
  unfold iblk0
  rw [View.read_apply]
  show V c main_v1 _ = V c main_v1 y
  congr 1
  funext a
  apply Fin.ext
  match a with
  | ⟨0, _⟩ => show win0_2.index t (0 : Fin 2) * 1 + 1 * (y 0).val = (y 0).val; omega
  | ⟨1, _⟩ => show win0_2.index t (1 : Fin 2) * 1024 + 1 * (y 1).val = (y 1).val; omega

/-- The value weights' block at any point is the whole matrix. -/
theorem wvBlock_eq (c : Dev nD) (t : Fin cfg0.N) : (iblk0 V c 3 t : Vec Ideal S1024x1024 .bf16) = arrWv V c := by
  obtain ⟨-, -, -, -, -, -, -, -, -, -, -, e0, e1, -⟩ := idx_facts t
  refine funext fun (y : S1024x1024.Idx) => ?_
  unfold iblk0
  rw [View.read_apply]
  show V c main_v5 _ = V c main_v5 y
  congr 1
  funext a
  apply Fin.ext
  match a with
  | ⟨0, _⟩ => show win0_3.index t (0 : Fin 2) * 1024 + 1 * (y 0).val = (y 0).val; omega
  | ⟨1, _⟩ => show win0_3.index t (1 : Fin 2) * 1024 + 1 * (y 1).val = (y 1).val; omega

/-- The value bias's block at any point is the whole row. -/
theorem bvBlock_eq (c : Dev nD) (t : Fin cfg0.N) : (iblk0 V c 4 t : Vec Ideal S1x1024 .f32) = arrBv V c := by
  obtain ⟨-, -, -, -, -, -, -, -, -, -, -, -, -, e0, e1, -⟩ := idx_facts t
  refine funext fun (y : S1x1024.Idx) => ?_
  unfold iblk0
  rw [View.read_apply]
  show V c main_v2 _ = V c main_v2 y
  congr 1
  funext a
  apply Fin.ext
  match a with
  | ⟨0, _⟩ => show win0_4.index t (0 : Fin 2) * 1 + 1 * (y 0).val = (y 0).val; omega
  | ⟨1, _⟩ => show win0_4.index t (1 : Fin 2) * 1024 + 1 * (y 1).val = (y 1).val; omega

/-- A normalised projection read at an entry depends only on its row, weights, bias and entry. -/
theorem npRow_congr {x x' : Fin 1024 → EReal} {W W' : Fin 1024 → Fin 1024 → EReal} {b b' : Fin 1024 → EReal}
    {e e' : Fin 1024} (hx : x = x') (hW : W = W') (hb : b = b') (he : e = e') :
    normRow (projRow x W b) e = normRow (projRow x' W' b') e' := by
  subst hx hW hb he; rfl

/-- The key tile at any index of the block. -/
theorem keyTile_at (x0 : Vec Ideal S1x256x1024 .f32) (x1 : Vec Ideal S1024x1024 .bf16) (x2 : Vec Ideal S1x1024 .f32)
    (x3 : Vec Ideal S1024x1024 .bf16) (x4 : Vec Ideal S1x1024 .f32) (y : S1x256x1024.Idx) :
    out0_5 (F := Ideal) x0 x1 x2 x3 x4 y = npTileRow x0 x1 x2 (y 1) (y 2) := by
  conv_lhs => rw [eq_ix3 y]
  exact keyTile_apply x0 x1 x2 x3 x4 (y 0) (y 1) (y 2)

/-- The value tile at any index of the block. -/
theorem valueTile_at (x0 : Vec Ideal S1x256x1024 .f32) (x1 : Vec Ideal S1024x1024 .bf16) (x2 : Vec Ideal S1x1024 .f32)
    (x3 : Vec Ideal S1024x1024 .bf16) (x4 : Vec Ideal S1x1024 .f32) (y : S1x256x1024.Idx) :
    out0_6 (F := Ideal) x0 x1 x2 x3 x4 y = npTileRow x0 x3 x4 (y 1) (y 2) := by
  conv_lhs => rw [eq_ix3 y]
  exact valueTile_apply x0 x1 x2 x3 x4 (y 0) (y 1) (y 2)

/-- What point t writes back into the key array is block t of the array of normalised key projections. -/
theorem keyFlushed (c : Dev nD) (t : Fin cfg0.N) :
    (dat0 V c).flushed 5 t = ((cfg0.win 5).blk t).view.read (Elt Ideal) (keyG V c) := by
  show (cfg0.win 5).cut (grid0.coords t) ((dat0 V c).after 5 t) = _
  rw [after0_5]
  obtain ⟨-, -, -, -, -, -, e6, -⟩ := idx_facts t
  refine funext fun (y : S1x256x1024.Idx) => ?_
  have hy0 : (y 0).val < 1 := (y 0).isLt
  show out0_5 (F := Ideal) (iblk0 V c 0 t) (iblk0 V c 1 t) (iblk0 V c 2 t) (iblk0 V c 3 t) (iblk0 V c 4 t) y
    = keyG V c (((cfg0.win 5).blk t).view.emb y)
  refine (keyTile_at _ _ _ _ _ y).trans ?_
  unfold npTileRow
  refine npRow_congr
    (funext fun d => xBlock_apply V c t (ix3 (0 : Fin 1) (y 1) d)
      (ix3 ((((cfg0.win 5).blk t).view.emb y) 0) ((((cfg0.win 5).blk t).view.emb y) 1) d) ?_ ?_ rfl)
    (by rw [wkBlock_eq]; rfl) (by rw [bkBlock_eq]; rfl) (Fin.ext ?_)
  · show win0_5.index t (0 : Fin 3) * 1 + 1 * (y 0).val = win0_5.index t (0 : Fin 3) + 0; omega
  · show win0_5.index t (1 : Fin 3) * 256 + 1 * (y 1).val = win0_5.index t (1 : Fin 3) * 256 + (y 1).val; omega
  · show (y 2).val = win0_5.index t (2 : Fin 3) * 1024 + 1 * (y 2).val; omega

/-- What point t writes back into the value array is block t of the array of normalised value projections. -/
theorem valFlushed (c : Dev nD) (t : Fin cfg0.N) :
    (dat0 V c).flushed 6 t = ((cfg0.win 6).blk t).view.read (Elt Ideal) (valG V c) := by
  show (cfg0.win 6).cut (grid0.coords t) ((dat0 V c).after 6 t) = _
  rw [after0_6]
  obtain ⟨-, -, -, e3, e4, e5, -⟩ := idx_facts t
  refine funext fun (y : S1x256x1024.Idx) => ?_
  have hy0 : (y 0).val < 1 := (y 0).isLt
  show out0_6 (F := Ideal) (iblk0 V c 0 t) (iblk0 V c 1 t) (iblk0 V c 2 t) (iblk0 V c 3 t) (iblk0 V c 4 t) y
    = valG V c (((cfg0.win 6).blk t).view.emb y)
  refine (valueTile_at _ _ _ _ _ y).trans ?_
  unfold npTileRow
  refine npRow_congr
    (funext fun d => xBlock_apply V c t (ix3 (0 : Fin 1) (y 1) d)
      (ix3 ((((cfg0.win 6).blk t).view.emb y) 0) ((((cfg0.win 6).blk t).view.emb y) 1) d) ?_ ?_ rfl)
    (by rw [wvBlock_eq]; rfl) (by rw [bvBlock_eq]; rfl) (Fin.ext ?_)
  · show win0_6.index t (0 : Fin 3) * 1 + 1 * (y 0).val = win0_5.index t (0 : Fin 3) + 0; omega
  · show win0_6.index t (1 : Fin 3) * 256 + 1 * (y 1).val = win0_5.index t (1 : Fin 3) * 256 + (y 1).val; omega
  · show (y 2).val = win0_6.index t (2 : Fin 3) * 1024 + 1 * (y 2).val; omega

/-- An index of the key array is in point t's block iff each coordinate is in the block's range on its axis. -/
theorem mem_blk5 (t : Fin cfg0.N) (i : S16x2048x1024.Idx) :
    i ∈ ((cfg0.win 5).blk t).view.set ↔ ∀ a : Fin 3, win0_5.index t a * S1x256x1024.size a ≤ (i a).val
      ∧ (i a).val < win0_5.index t a * S1x256x1024.size a + S1x256x1024.size a := by
  show i ∈ ((View.whole main_v6_0).slice (win0_5.rect t)).set ↔ _
  rw [View.set_slice_whole, Rect.mem_set_unit]
  exact Iff.rfl

/-- The same for the value array. -/
theorem mem_blk6 (t : Fin cfg0.N) (i : S16x2048x1024.Idx) :
    i ∈ ((cfg0.win 6).blk t).view.set ↔ ∀ a : Fin 3, win0_6.index t a * S1x256x1024.size a ≤ (i a).val
      ∧ (i a).val < win0_6.index t a * S1x256x1024.size a + S1x256x1024.size a := by
  show i ∈ ((View.whole main_v6_1).slice (win0_6.rect t)).set ↔ _
  rw [View.set_slice_whole, Rect.mem_set_unit]
  exact Iff.rfl

/-- Every index of the key array is in the block of the point (batch, row / 256). -/
theorem key_cover (i : S16x2048x1024.Idx) :
    ∃ t : Fin cfg0.N, (cfg0.win 5).flush t = true ∧ i ∈ ((cfg0.win 5).blk t).view.set := by
  have hi0 : (i 0).val < 16 := (i 0).isLt
  have hi1 : (i 1).val < 2048 := (i 1).isLt
  have hi2 : (i 2).val < 1024 := (i 2).isLt
  obtain ⟨t, ht⟩ := idx_onto ⟨(i 0).val, hi0⟩ ⟨(i 1).val / 256, by omega⟩
  have q0 : win0_5.index t (0 : Fin 3) = (i 0).val := congrFun ht 0
  have q1 : win0_5.index t (1 : Fin 3) = (i 1).val / 256 := congrFun ht 1
  have q2 : win0_5.index t (2 : Fin 3) = 0 := congrFun ht 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 1024 ≤ (i 2).val ∧ (i 2).val < win0_5.index t (2 : Fin 3) * 1024 + 1024; omega

/-- Every index of the value array is in the block of the point (batch, row / 256). -/
theorem val_cover (i : S16x2048x1024.Idx) :
    ∃ t : Fin cfg0.N, (cfg0.win 6).flush t = true ∧ i ∈ ((cfg0.win 6).blk t).view.set := by
  have hi0 : (i 0).val < 16 := (i 0).isLt
  have hi1 : (i 1).val < 2048 := (i 1).isLt
  have hi2 : (i 2).val < 1024 := (i 2).isLt
  obtain ⟨t, ht⟩ := idx_onto ⟨(i 0).val, hi0⟩ ⟨(i 1).val / 256, by omega⟩
  have q0 : win0_5.index t (0 : Fin 3) = (i 0).val := congrFun ht 0
  have q1 : win0_5.index t (1 : Fin 3) = (i 1).val / 256 := congrFun ht 1
  obtain ⟨-, -, -, e3, e4, e5, -⟩ := idx_facts t
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 256 ≤ (i 1).val ∧ (i 1).val < win0_6.index t (1 : Fin 3) * 256 + 256; omega
  | ⟨2, _⟩ => show win0_6.index t (2 : Fin 3) * 1024 ≤ (i 2).val ∧ (i 2).val < win0_6.index t (2 : Fin 3) * 1024 + 1024; omega

/-- The key array after the region. -/
theorem keyArr (c : Dev nD) : (dat0 V c).arrAt 5 cfg0.N = keyG V c :=
  (dat0 V c).arrAt_eq_of_cover 5 (keyG V c) (fun t _ => keyFlushed V c t) key_cover

/-- The value array after the region. -/
theorem valArr (c : Dev nD) : (dat0 V c).arrAt 6 cfg0.N = valG V c :=
  (dat0 V c).arrAt_eq_of_cover 6 (valG V c) (fun t _ => valFlushed V c t) val_cover

end Cert.Attn.KVArr

end
-- ==== Proof.TileAttn.lean ====
/- What a grid point of the attention kernel leaves in its two output tiles, entry by entry.

   The point has a tile of 256 rows of Y and all 2048 key rows and value rows of its batch.  Row r of the query tile
   is the normalised projection of row r of Y.  The attention tile's entry (r, j) is the softmax weight of query row r
   on key row j; the output tile's row r is the query row plus the normalised mix of the value rows with those
   weights, normalised.  The changes of float format in the body are the identity on the extended reals, and the
   casts between a tile and its block with a leading unit axis move no entry. -/
import proofs.«173738_j10161892623139_2_alg».proof.Proof.Gen.KernelIdeal.Frame
import proofs.«173738_j10161892623139_2_alg».proof.Proof.KerOps
import proofs.«173738_j10161892623139_2_alg».proof.Proof.TileKV

noncomputable section

open scoped BigOperators

open Idealize.ShloMosaic Idealize.ShloMosaic.ValueIdx Cert.Attn

namespace Cert.Attn.QA

open Cert.KernelIdeal Cert.KernelIdeal.Gen Cert.Attn.KV

/-- The 2048 rows of a [1, 2048, 1024] block. -/
def blockRows (k : Vec Ideal S1x2048x1024 .bf16) : Fin 2048 → Fin 1024 → EReal := fun j h => k (ix3 (0 : Fin 1) j h)

/-- The query payload at (r, c): the normalised projection of row r of the tile of Y. -/
theorem queryPayload_apply (v0 : Vec Ideal S1x256x1024 .f32) (v3 : Vec Ideal S1024x1024 .bf16) (v5 : Vec Ideal S1x1024 .f32)
    (r : Fin 256) (c : Fin 1024) :
    k1_pay3 (F := Ideal) v0 v3 v5 (ix2 r c) = npTileRow v0 v3 v5 r c := by
  unfold k1_pay3 npTileRow
  dsimp only
  rw [Ker.normTile_apply]
  refine congrArg (fun p => normRow p c) (funext fun k => ?_)
  refine (Ker.projTile_apply (R := 256) (D := 1024) (H := 1024) _ _ _ _ r k).trans ?_
  simp only [truncf_apply, shapeCast_1ab_ab_apply, shapeCast_self]

/-- The attention payload at (r, j): the softmax weight of query row r on key row j. -/
theorem attPayload_apply (v0 : Vec Ideal S1x256x1024 .f32) (v3 : Vec Ideal S1024x1024 .bf16) (v5 : Vec Ideal S1x1024 .f32)
    (v18 : Vec Ideal S1x2048x1024 .bf16) (r : Fin 256) (j : Fin 2048) :
    k1_pay5 (F := Ideal) v0 v3 v5 v18 (ix2 r j) = attRow (npTileRow v0 v3 v5 r) (blockRows v18) j := by
  unfold k1_pay5 attRow
  dsimp only
  rw [Ker.softmaxTile_apply]
  refine congrArg (fun s => softmaxRow s j) (funext fun k => ?_)
  refine (Ker.scoreTile_apply (R := 256) (H := 1024) (L := 2048) _ _ r k).trans ?_
  simp only [truncf_apply, queryPayload_apply, shapeCast_1ab_ab_apply]
  rfl

/-- The output payload at (z, r, h), from the query tile, the value rows and the attention tile. -/
theorem crossPayload_apply (v17 : FVec Ideal S256x1024 .f32) (v21 : FVec Ideal S2048x1024 .bf16) (v34 : FVec Ideal S256x2048 .f32)
    (z : Fin 1) (r : Fin 256) (h : Fin 1024) :
    k1_pay2 (F := Ideal) v17 v21 v34 (ix3 z r h)
      = normRow (fun c => v17 (ix2 r c) + normRow (mixRow (fun j => v34 (ix2 r j)) (fun j c => v21 (ix2 j c))) c) h := by
  unfold k1_pay2
  dsimp only
  rw [shapeCast_ab_1ab_apply, Ker.normTile_apply]
  refine congrArg (fun p => normRow p h) (funext fun c => ?_)
  rw [addf_apply, Ker.normTile_apply]
  refine congrArg (fun p => v17 (ix2 r c) + normRow p c) (funext fun c' => ?_)
  refine (Ker.mixTile_apply (R := 256) (L := 2048) (H := 1024) _ _ r c').trans ?_
  simp only [truncf_apply]

/-- The attention tile after the body: one store of the whole block. -/
theorem attTile_apply (x0 : Vec Ideal S1x256x1024 .f32) (x1 : Vec Ideal S1024x1024 .bf16) (x2 : Vec Ideal S1x1024 .f32)
    (x3 x4 : Vec Ideal S1x2048x1024 .bf16) (z : Fin 1) (r : Fin 256) (j : Fin 2048) :
    out1_6 (F := Ideal) x0 x1 x2 x3 x4 (ix3 z r j) = attRow (npTileRow x0 x1 x2 r) (blockRows x3) j := by
  unfold out1_6
  rw [View.canon_unit_zero hz3]
  simp only [View.ld_unit_zero (S := S1x256x1024) hz3, View.ld_unit_zero (S := S1024x1024) hz2,
    View.ld_unit_zero (S := S1x1024) hz2, View.ld_unit_zero (S := S1x2048x1024) hz3]
  unfold k1_pay1
  rw [shapeCast_ab_1ab_apply]
  exact attPayload_apply x0 x1 x2 x3 r j

/-- The output tile after the body: one store of the whole block. -/
theorem crossTile_apply (x0 : Vec Ideal S1x256x1024 .f32) (x1 : Vec Ideal S1024x1024 .bf16) (x2 : Vec Ideal S1x1024 .f32)
    (x3 x4 : Vec Ideal S1x2048x1024 .bf16) (z : Fin 1) (r : Fin 256) (h : Fin 1024) :
    out1_5 (F := Ideal) x0 x1 x2 x3 x4 (ix3 z r h)
      = crossRow (npTileRow x0 x1 x2 r) (blockRows x3) (blockRows x4) h := by
  unfold out1_5
  rw [View.canon_unit_zero hz3]
  simp only [View.ld_unit_zero (S := S1x256x1024) hz3, View.ld_unit_zero (S := S1024x1024) hz2,
    View.ld_unit_zero (S := S1x1024) hz2, View.ld_unit_zero (S := S1x2048x1024) hz3]
  rw [crossPayload_apply]
  unfold crossRow k1_pay4
  simp only [queryPayload_apply, attPayload_apply, shapeCast_1ab_ab_apply]
  rfl

end Cert.Attn.QA

end
-- ==== Proof.ArrAttn.lean ====
/- The attention weights and the output after the second region, as whole-array functions of what the region finds.

   The region's 128 grid points are (batch, query tile): point t writes back rows 256·i … 256·i + 255 of batch b of each
   output array, computed from the same rows of Y, the whole query weights and bias row, and ALL key rows and value rows
   of batch b.  The relations between the printed index maps are decided once over the grid; each input block is read at
   the coordinates the output block's rectangle names; every index of an output array lies in the block of the point
   (b, row / 256); so the two output arrays end as the attention weights and the output of Proof/ArraySpec.lean. -/
import proofs.«173738_j10161892623139_2_alg».proof.Proof.Gen.KernelIdeal.Frame
import proofs.«173738_j10161892623139_2_alg».proof.Proof.TileAttn
import proofs.«173738_j10161892623139_2_alg».proof.Proof.ArraySpec
import Idealize.ShloMosaic.Lib.Pipeline.Value

set_option maxRecDepth 16384

noncomputable section

open scoped BigOperators

open Idealize.ShloMosaic Idealize.ShloMosaic.TcCoe Idealize.ShloMosaic.ValueIdx Idealize.SL.Sem Cert.Attn
open Idealize.ShloMosaic.Pipeline (Dat)

namespace Cert.Attn.AttnArr

open Cert.KernelIdeal Cert.KernelIdeal.Gen Cert.Attn.KV Cert.Attn.QA

variable (V : (c : Dev nD) → (b : Ref sig .tc) → Buf (Elt Ideal) ((c : Thread nD τ).loc b))

/-- The arrays the region reads, as the region finds them. -/
abbrev arrY (c : Dev nD) : T3 16 2048 1024 := V c main_arg0
abbrev arrWq (c : Dev nD) : T2 1024 1024 := V c main_v3
abbrev arrBq (c : Dev nD) : T2 1 1024 := V c main_v0
abbrev arrK (c : Dev nD) : T3 16 2048 1024 := V c main_v6_0
abbrev arrV (c : Dev nD) : T3 16 2048 1024 := V c main_v6_1

/-- What the attention array ends holding, and the output array. -/
abbrev attG (c : Dev nD) : T3 16 2048 2048 :=
  attArr (arrY V c) (matOf (arrWq V c)) (vecOfRow (arrBq V c)) (arrK V c)
abbrev crossG (c : Dev nD) : T3 16 2048 1024 :=
  crossArr (arrY V c) (matOf (arrWq V c)) (vecOfRow (arrBq V c)) (arrK V c) (arrV V c)

/-- The printed index maps, decided over the grid: the tile of Y and both output tiles move together over (batch,
    query tile) at lane block 0; the weights and bias stay at block (0, 0); the key and value blocks follow the batch. -/
theorem idx_facts : ∀ t : Fin cfg1.N,
    win1_1.index t (0 : Fin 2) = 0 ∧ win1_1.index t (1 : Fin 2) = 0
    ∧ win1_2.index t (0 : Fin 2) = 0 ∧ win1_2.index t (1 : Fin 2) = 0
    ∧ win1_0.index t (0 : Fin 3) = win1_5.index t (0 : Fin 3) ∧ win1_0.index t (1 : Fin 3) = win1_5.index t (1 : Fin 3)
    ∧ win1_0.index t (2 : Fin 3) = 0
    ∧ win1_6.index t (0 : Fin 3) = win1_5.index t (0 : Fin 3) ∧ win1_6.index t (1 : Fin 3) = win1_5.index t (1 : Fin 3)
    ∧ win1_6.index t (2 : Fin 3) = 0 ∧ win1_5.index t (2 : Fin 3) = 0
    ∧ win1_3.index t (0 : Fin 3) = win1_5.index t (0 : Fin 3) ∧ win1_3.index t (1 : Fin 3) = 0 ∧ win1_3.index t (2 : Fin 3) = 0
    ∧ win1_4.index t (0 : Fin 3) = win1_5.index t (0 : Fin 3) ∧ win1_4.index t (1 : Fin 3) = 0 ∧ win1_4.index t (2 : Fin 3) = 0
    ∧ win1_5.index t (0 : Fin 3) ≤ 15 ∧ win1_5.index t (1 : Fin 3) ≤ 7 :=
  (by decide +kernel : ∀ t : Fin grid1.N, _)

/-- Every (batch, query tile) is some point's block. -/
theorem idx_onto : ∀ (q0 : Fin 16) (q1 : Fin 8), ∃ t : Fin cfg1.N, win1_5.index t = ![q0.val, q1.val, 0] :=
  (by decide +kernel : ∀ (q0 : Fin 16) (q1 : Fin 8), ∃ t : Fin grid1.N, win1_5.index t = ![q0.val, q1.val, 0])

/-- The query weights' block at any point is the whole matrix. -/
theorem wqBlock_eq (c : Dev nD) (t : Fin cfg1.N) : (iblk1 V c 1 t : Vec Ideal S1024x1024 .bf16) = arrWq V c := by
  obtain ⟨e0, e1, -⟩ := idx_facts t
  refine funext fun (y : S1024x1024.Idx) => ?_
  unfold iblk1
  rw [View.read_apply]
  show V c main_v3 _ = V c main_v3 y
  congr 1
  funext a
  apply Fin.ext
  match a with
  | ⟨0, _⟩ => show win1_1.index t (0 : Fin 2) * 1024 + 1 * (y 0).val = (y 0).val; omega
  | ⟨1, _⟩ => show win1_1.index t (1 : Fin 2) * 1024 + 1 * (y 1).val = (y 1).val; omega

/-- The query bias's block at any point is the whole row. -/
theorem bqBlock_eq (c : Dev nD) (t : Fin cfg1.N) : (iblk1 V c 2 t : Vec Ideal S1x1024 .f32) = arrBq V c := by
  obtain ⟨-, -, e0, e1, -⟩ := idx_facts t
  refine funext fun (y : S1x1024.Idx) => ?_
  unfold iblk1
  rw [View.read_apply]
  show V c main_v0 _ = V c main_v0 y
  congr 1
  funext a
  apply Fin.ext
  match a with
  | ⟨0, _⟩ => show win1_2.index t (0 : Fin 2) * 1 + 1 * (y 0).val = (y 0).val; omega
  | ⟨1, _⟩ => show win1_2.index t (1 : Fin 2) * 1024 + 1 * (y 1).val = (y 1).val; omega

/-- The tile of Y at point t, read at y, is Y at the array index the output block's rectangle gives y. -/
theorem yBlock_apply (c : Dev nD) (t : Fin cfg1.N) (y : S1x256x1024.Idx) (k : S16x2048x1024.Idx)
    (h0 : (k 0).val = win1_5.index t (0 : Fin 3) + (y 0).val)
    (h1 : (k 1).val = win1_5.index t (1 : Fin 3) * 256 + (y 1).val) (h2 : (k 2).val = (y 2).val) :
    (iblk1 V c 0 t : Vec Ideal S1x256x1024 .f32) y = arrY V c k := by
  obtain ⟨-, -, -, -, e0, e1, e2, -⟩ := idx_facts t
  unfold iblk1
  rw [View.read_apply]
  show V c main_arg0 _ = V c main_arg0 k
  congr 1
  funext a
  apply Fin.ext
  match a with
  | ⟨0, _⟩ => show win1_0.index t (0 : Fin 3) * 1 + 1 * (y 0).val = (k 0).val; omega
  | ⟨1, _⟩ => show win1_0.index t (1 : Fin 3) * 256 + 1 * (y 1).val = (k 1).val; omega
  | ⟨2, _⟩ => show win1_0.index t (2 : Fin 3) * 1024 + 1 * (y 2).val = (k 2).val; omega

/-- The key block at point t is all rows of the point's batch of the key array. -/
theorem kBlock_apply (c : Dev nD) (t : Fin cfg1.N) (y : S1x2048x1024.Idx) (k : S16x2048x1024.Idx)
    (h0 : (k 0).val = win1_5.index t (0 : Fin 3) + (y 0).val) (h1 : (k 1).val = (y 1).val) (h2 : (k 2).val = (y 2).val) :
    (iblk1 V c 3 t : Vec Ideal S1x2048x1024 .bf16) y = arrK V c k := by
  obtain ⟨-, -, -, -, -, -, -, -, -, -, -, e0, e1, e2, -⟩ := idx_facts t
  unfold iblk1
  rw [View.read_apply]
  show V c main_v6_0 _ = V c main_v6_0 k
  congr 1
  funext a
  apply Fin.ext
  match a with
  | ⟨0, _⟩ => show win1_3.index t (0 : Fin 3) * 1 + 1 * (y 0).val = (k 0).val; omega
  | ⟨1, _⟩ => show win1_3.index t (1 : Fin 3) * 2048 + 1 * (y 1).val = (k 1).val; omega
  | ⟨2, _⟩ => show win1_3.index t (2 : Fin 3) * 1024 + 1 * (y 2).val = (k 2).val; omega

/-- The value block at point t is all rows of the point's batch of the value array. -/
theorem vBlock_apply (c : Dev nD) (t : Fin cfg1.N) (y : S1x2048x1024.Idx) (k : S16x2048x1024.Idx)
    (h0 : (k 0).val = win1_5.index t (0 : Fin 3) + (y 0).val) (h1 : (k 1).val = (y 1).val) (h2 : (k 2).val = (y 2).val) :
    (iblk1 V c 4 t : Vec Ideal S1x2048x1024 .bf16) y = arrV V c k := by
  obtain ⟨-, -, -, -, -, -, -, -, -, -, -, -, -, -, e0, e1, e2, -⟩ := idx_facts t
  unfold iblk1
  rw [View.read_apply]
  show V c main_v6_1 _ = V c main_v6_1 k
  congr 1
  funext a
  apply Fin.ext
  match a with
  | ⟨0, _⟩ => show win1_4.index t (0 : Fin 3) * 1 + 1 * (y 0).val = (k 0).val; omega
  | ⟨1, _⟩ => show win1_4.index t (1 : Fin 3) * 2048 + 1 * (y 1).val = (k 1).val; omega
  | ⟨2, _⟩ => show win1_4.index t (2 : Fin 3) * 1024 + 1 * (y 2).val = (k 2).val; omega

/-- The attention weight of a query row on a key row depends only on the query row, the key rows and the key's place. -/
theorem attRow_congr {q q' : Fin 1024 → EReal} {K K' : Fin 2048 → Fin 1024 → EReal} {j j' : Fin 2048}
    (hq : q = q') (hK : K = K') (hj : j = j') : attRow q K j = attRow q' K' j' := by
  subst hq hK hj; rfl

/-- The output row's entry depends only on the query row, the key rows, the value rows and the entry's place. -/
theorem crossRow_congr {q q' : Fin 1024 → EReal} {K K' W W' : Fin 2048 → Fin 1024 → EReal} {h h' : Fin 1024}
    (hq : q = q') (hK : K = K') (hW : W = W') (hh : h = h') : crossRow q K W h = crossRow q' K' W' h' := by
  subst hq hK hW hh; rfl

/-- The attention tile at any index of the block. -/
theorem attTile_at (x0 : Vec Ideal S1x256x1024 .f32) (x1 : Vec Ideal S1024x1024 .bf16) (x2 : Vec Ideal S1x1024 .f32)
    (x3 x4 : Vec Ideal S1x2048x1024 .bf16) (y : S1x256x2048.Idx) :
    out1_6 (F := Ideal) x0 x1 x2 x3 x4 y = attRow (npTileRow x0 x1 x2 (y 1)) (blockRows x3) (y 2) := by
  conv_lhs => rw [eq_ix3 y]
  exact attTile_apply x0 x1 x2 x3 x4 (y 0) (y 1) (y 2)

/-- The output tile at any index of the block. -/
theorem crossTile_at (x0 : Vec Ideal S1x256x1024 .f32) (x1 : Vec Ideal S1024x1024 .bf16) (x2 : Vec Ideal S1x1024 .f32)
    (x3 x4 : Vec Ideal S1x2048x1024 .bf16) (y : S1x256x1024.Idx) :
    out1_5 (F := Ideal) x0 x1 x2 x3 x4 y = crossRow (npTileRow x0 x1 x2 (y 1)) (blockRows x3) (blockRows x4) (y 2) := by
  conv_lhs => rw [eq_ix3 y]
  exact crossTile_apply x0 x1 x2 x3 x4 (y 0) (y 1) (y 2)

/-- Row r of the point's query tile is the normalised projection of the row of Y that the output block names. -/
theorem queryRow_eq (c : Dev nD) (t : Fin cfg1.N) (r : Fin 256) (b : Fin 16) (l : Fin 2048)
    (hb : b.val = win1_5.index t (0 : Fin 3)) (hl : l.val = win1_5.index t (1 : Fin 3) * 256 + r.val) :
    npTileRow (iblk1 V c 0 t) (iblk1 V c 1 t) (iblk1 V c 2 t) r
      = npRows (arrY V c) (matOf (arrWq V c)) (vecOfRow (arrBq V c)) b l := by
  unfold npTileRow npRows
  rw [wqBlock_eq, bqBlock_eq]
  refine congrArg (fun x => normRow (projRow x (matOf (arrWq V c)) (vecOfRow (arrBq V c)))) (funext fun d => ?_)
  exact yBlock_apply V c t (ix3 (0 : Fin 1) r d) (ix3 b l d) (by show b.val = _ + 0; omega) hl rfl

/-- The rows of the point's key block are the rows of its batch of the key array. -/
theorem keyRows_eq (c : Dev nD) (t : Fin cfg1.N) (b : Fin 16) (hb : b.val = win1_5.index t (0 : Fin 3)) :
    blockRows (iblk1 V c 3 t) = rowsOf (arrK V c) b :=
  funext fun j => funext fun h => kBlock_apply V c t (ix3 (0 : Fin 1) j h) (ix3 b j h) (by show b.val = _ + 0; omega) rfl rfl

/-- The rows of the point's value block are the rows of its batch of the value array. -/
theorem valRows_eq (c : Dev nD) (t : Fin cfg1.N) (b : Fin 16) (hb : b.val = win1_5.index t (0 : Fin 3)) :
    blockRows (iblk1 V c 4 t) = rowsOf (arrV V c) b :=
  funext fun j => funext fun h => vBlock_apply V c t (ix3 (0 : Fin 1) j h) (ix3 b j h) (by show b.val = _ + 0; omega) rfl rfl

/-- What point t writes back into the attention array is block t of the attention weights. -/
theorem attFlushed (c : Dev nD) (t : Fin cfg1.N) :
    (dat1 V c).flushed 6 t = ((cfg1.win 6).blk t).view.read (Elt Ideal) (attG V c) := by
  show (cfg1.win 6).cut (grid1.coords t) ((dat1 V c).after 6 t) = _
  rw [after1_6]
  obtain ⟨-, -, -, -, -, -, -, e7, e8, e9, -⟩ := idx_facts t
  refine funext fun (y : S1x256x2048.Idx) => ?_
  have hy0 : (y 0).val < 1 := (y 0).isLt
  show out1_6 (F := Ideal) (iblk1 V c 0 t) (iblk1 V c 1 t) (iblk1 V c 2 t) (iblk1 V c 3 t) (iblk1 V c 4 t) y
    = attG V c (((cfg1.win 6).blk t).view.emb y)
  refine (attTile_at _ _ _ _ _ y).trans ?_
  refine attRow_congr
    (queryRow_eq V c t (y 1) ((((cfg1.win 6).blk t).view.emb y) 0) ((((cfg1.win 6).blk t).view.emb y) 1) ?_ ?_)
    (keyRows_eq V c t ((((cfg1.win 6).blk t).view.emb y) 0) ?_) (Fin.ext ?_)
  · show win1_6.index t (0 : Fin 3) * 1 + 1 * (y 0).val = win1_5.index t (0 : Fin 3); omega
  · show win1_6.index t (1 : Fin 3) * 256 + 1 * (y 1).val = win1_5.index t (1 : Fin 3) * 256 + (y 1).val; omega
  · show win1_6.index t (0 : Fin 3) * 1 + 1 * (y 0).val = win1_5.index t (0 : Fin 3); omega
  · show (y 2).val = win1_6.index t (2 : Fin 3) * 2048 + 1 * (y 2).val; omega

/-- What point t writes back into the output array is block t of the output. -/
theorem crossFlushed (c : Dev nD) (t : Fin cfg1.N) :
    (dat1 V c).flushed 5 t = ((cfg1.win 5).blk t).view.read (Elt Ideal) (crossG V c) := by
  show (cfg1.win 5).cut (grid1.coords t) ((dat1 V c).after 5 t) = _
  rw [after1_5]
  obtain ⟨-, -, -, -, -, -, -, -, -, -, e10, -⟩ := idx_facts t
  refine funext fun (y : S1x256x1024.Idx) => ?_
  have hy0 : (y 0).val < 1 := (y 0).isLt
  show out1_5 (F := Ideal) (iblk1 V c 0 t) (iblk1 V c 1 t) (iblk1 V c 2 t) (iblk1 V c 3 t) (iblk1 V c 4 t) y
    = crossG V c (((cfg1.win 5).blk t).view.emb y)
  refine (crossTile_at _ _ _ _ _ y).trans ?_
  refine crossRow_congr
    (queryRow_eq V c t (y 1) ((((cfg1.win 5).blk t).view.emb y) 0) ((((cfg1.win 5).blk t).view.emb y) 1) ?_ ?_)
    (keyRows_eq V c t ((((cfg1.win 5).blk t).view.emb y) 0) ?_)
    (valRows_eq V c t ((((cfg1.win 5).blk t).view.emb y) 0) ?_) (Fin.ext ?_)
  · show win1_5.index t (0 : Fin 3) * 1 + 1 * (y 0).val = win1_5.index t (0 : Fin 3); omega
  · show win1_5.index t (1 : Fin 3) * 256 + 1 * (y 1).val = win1_5.index t (1 : Fin 3) * 256 + (y 1).val; omega
  · show win1_5.index t (0 : Fin 3) * 1 + 1 * (y 0).val = win1_5.index t (0 : Fin 3); omega
  · show win1_5.index t (0 : Fin 3) * 1 + 1 * (y 0).val = win1_5.index t (0 : Fin 3); omega
  · show (y 2).val = win1_5.index t (2 : Fin 3) * 1024 + 1 * (y 2).val; omega

/-- An index of the output array is in point t's block iff each coordinate is in the block's range on its axis. -/
theorem mem_blk5 (t : Fin cfg1.N) (i : S16x2048x1024.Idx) :
    i ∈ ((cfg1.win 5).blk t).view.set ↔ ∀ a : Fin 3, win1_5.index t a * S1x256x1024.size a ≤ (i a).val
      ∧ (i a).val < win1_5.index t a * S1x256x1024.size a + S1x256x1024.size a := by
  show i ∈ ((View.whole main_v7_0).slice (win1_5.rect t)).set ↔ _
  rw [View.set_slice_whole, Rect.mem_set_unit]
  exact Iff.rfl

/-- The same for the attention array. -/
theorem mem_blk6 (t : Fin cfg1.N) (i : S16x2048x2048.Idx) :
    i ∈ ((cfg1.win 6).blk t).view.set ↔ ∀ a : Fin 3, win1_6.index t a * S1x256x2048.size a ≤ (i a).val
      ∧ (i a).val < win1_6.index t a * S1x256x2048.size a + S1x256x2048.size a := by
  show i ∈ ((View.whole main_v7_1).slice (win1_6.rect t)).set ↔ _
  rw [View.set_slice_whole, Rect.mem_set_unit]
  exact Iff.rfl

/-- Every index of the output array is in the block of the point (batch, row / 256). -/
theorem cross_cover (i : S16x2048x1024.Idx) :
    ∃ t : Fin cfg1.N, (cfg1.win 5).flush t = true ∧ i ∈ ((cfg1.win 5).blk t).view.set := by
  have hi0 : (i 0).val < 16 := (i 0).isLt
  have hi1 : (i 1).val < 2048 := (i 1).isLt
  have hi2 : (i 2).val < 1024 := (i 2).isLt
  obtain ⟨t, ht⟩ := idx_onto ⟨(i 0).val, hi0⟩ ⟨(i 1).val / 256, by omega⟩
  have q0 : win1_5.index t (0 : Fin 3) = (i 0).val := congrFun ht 0
  have q1 : win1_5.index t (1 : Fin 3) = (i 1).val / 256 := congrFun ht 1
  have q2 : win1_5.index t (2 : Fin 3) = 0 := congrFun ht 2
  refine ⟨t, flush1_5 t, ?_⟩
  rw [mem_blk5]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 256 ≤ (i 1).val ∧ (i 1).val < win1_5.index t (1 : Fin 3) * 256 + 256; omega
  | ⟨2, _⟩ => show win1_5.index t (2 : Fin 3) * 1024 ≤ (i 2).val ∧ (i 2).val < win1_5.index t (2 : Fin 3) * 1024 + 1024; omega

/-- Every index of the attention array is in the block of the point (batch, row / 256). -/
theorem att_cover (i : S16x2048x2048.Idx) :
    ∃ t : Fin cfg1.N, (cfg1.win 6).flush t = true ∧ i ∈ ((cfg1.win 6).blk t).view.set := by
  have hi0 : (i 0).val < 16 := (i 0).isLt
  have hi1 : (i 1).val < 2048 := (i 1).isLt
  have hi2 : (i 2).val < 2048 := (i 2).isLt
  obtain ⟨t, ht⟩ := idx_onto ⟨(i 0).val, hi0⟩ ⟨(i 1).val / 256, by omega⟩
  have q0 : win1_5.index t (0 : Fin 3) = (i 0).val := congrFun ht 0
  have q1 : win1_5.index t (1 : Fin 3) = (i 1).val / 256 := congrFun ht 1
  obtain ⟨-, -, -, -, -, -, -, e7, e8, e9, -⟩ := idx_facts t
  refine ⟨t, flush1_6 t, ?_⟩
  rw [mem_blk6]
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 256 ≤ (i 1).val ∧ (i 1).val < win1_6.index t (1 : Fin 3) * 256 + 256; omega
  | ⟨2, _⟩ => show win1_6.index t (2 : Fin 3) * 2048 ≤ (i 2).val ∧ (i 2).val < win1_6.index t (2 : Fin 3) * 2048 + 2048; omega

/-- The output array after the region. -/
theorem crossArr_final (c : Dev nD) : (dat1 V c).arrAt 5 cfg1.N = crossG V c :=
  (dat1 V c).arrAt_eq_of_cover 5 (crossG V c) (fun t _ => crossFlushed V c t) cross_cover

/-- The attention array after the region. -/
theorem attArr_final (c : Dev nD) : (dat1 V c).arrAt 6 cfg1.N = attG V c :=
  (dat1 V c).arrAt_eq_of_cover 6 (attG V c) (fun t _ => attFlushed V c t) att_cover

end Cert.Attn.AttnArr

end
-- ==== Proof.KernelValue.lean ====
/- The kernel program's two result arrays as functions of its eight argument arrays.

   Before the first region the host reshapes the three bias vectors to rows and changes the three weight matrices'
   float format; on the extended reals the format change is the identity and the reshaped row reads the vector.  The
   first region leaves the key and value arrays (the normalised projections of X); the second region reads them, Y,
   the query weights and bias, and leaves the attention weights and the output.  Chaining what each region leaves as a
   function of what it finds gives the two results as the functions of Proof/ArraySpec.lean. -/
import proofs.«173738_j10161892623139_2_alg».proof.Proof.Gen.KernelIdeal.Frame
import proofs.«173738_j10161892623139_2_alg».proof.Proof.ArrKV
import proofs.«173738_j10161892623139_2_alg».proof.Proof.ArrAttn
import Idealize.ShloMosaic.Lib.StableHlo.Run
import Idealize.ShloMosaic.Lib.ValueLayout

set_option maxRecDepth 16384

noncomputable section

open scoped BigOperators

open Idealize.ShloMosaic Idealize.ShloMosaic.TcCoe Idealize.ShloMosaic.ValueIdx Idealize.SL.Sem Cert.Attn
open Idealize.ShloMosaic.StableHlo

namespace Cert.Attn.KVal

open Cert.KernelIdeal Cert.KernelIdeal.Gen

variable (m : (ℓ : Loc nD τ sig) → Buf (Elt Ideal) ℓ) (ρ : Dev nD → PrngReg)

/-- The argument arrays at launch. -/
abbrev mY (c : Dev nD) : T3 16 2048 1024 := m ((c : Thread nD τ).loc main_arg0)
abbrev mX (c : Dev nD) : T3 16 2048 1024 := m ((c : Thread nD τ).loc main_arg1)
abbrev mWq (c : Dev nD) : T2 1024 1024 := m ((c : Thread nD τ).loc main_arg2)
abbrev mBq (c : Dev nD) : T1 1024 := m ((c : Thread nD τ).loc main_arg3)
abbrev mWk (c : Dev nD) : T2 1024 1024 := m ((c : Thread nD τ).loc main_arg4)
abbrev mBk (c : Dev nD) : T1 1024 := m ((c : Thread nD τ).loc main_arg5)
abbrev mWv (c : Dev nD) : T2 1024 1024 := m ((c : Thread nD τ).loc main_arg6)
abbrev mBv (c : Dev nD) : T1 1024 := m ((c : Thread nD τ).loc main_arg7)

/-! ## What the first region finds -/

theorem entry_X (c : Dev nD) : KVArr.arrX (V1 m ρ) c = mX m c := by
  show StableHlo.after hostOps0 (W0 m ρ c) (Proc.devRef .tc main_arg1) = _
  after_results

theorem entry_Wk (c : Dev nD) : matOf (KVArr.arrWk (V1 m ρ) c) = matOf (mWk m c) := by
  have e : KVArr.arrWk (V1 m ρ) c = (truncf .bf16 (mWk m c : FVec Ideal S1024x1024 .f32) bitsLt_bf16_f32 : FVec Ideal S1024x1024 .bf16) := by
    show StableHlo.after hostOps0 (W0 m ρ c) (Proc.devRef .tc main_v4) = _
    after_results <;> rfl
  rw [e]; rfl

theorem entry_Wv (c : Dev nD) : matOf (KVArr.arrWv (V1 m ρ) c) = matOf (mWv m c) := by
  have e : KVArr.arrWv (V1 m ρ) c = (truncf .bf16 (mWv m c : FVec Ideal S1024x1024 .f32) bitsLt_bf16_f32 : FVec Ideal S1024x1024 .bf16) := by
    show StableHlo.after hostOps0 (W0 m ρ c) (Proc.devRef .tc main_v5) = _
    after_results <;> rfl
  rw [e]; rfl

theorem entry_Bk (c : Dev nD) : vecOfRow (KVArr.arrBk (V1 m ρ) c) = vecOf (mBk m c) := by
  have e : KVArr.arrBk (V1 m ρ) c = (shapeCast S1x1024 (mBk m c) shapeCasts_S1024_S1x1024 : S1x1024.Idx → EReal) := by
    show StableHlo.after hostOps0 (W0 m ρ c) (Proc.devRef .tc main_v1) = _
    after_results <;> rfl
  rw [e]
  exact funext fun h => shapeCast_a_1a_apply _ _ (0 : Fin 1) h

theorem entry_Bv (c : Dev nD) : vecOfRow (KVArr.arrBv (V1 m ρ) c) = vecOf (mBv m c) := by
  have e : KVArr.arrBv (V1 m ρ) c = (shapeCast S1x1024 (mBv m c) shapeCasts_S1024_S1x1024 : S1x1024.Idx → EReal) := by
    show StableHlo.after hostOps0 (W0 m ρ c) (Proc.devRef .tc main_v2) = _
    after_results <;> rfl
  rw [e]
  exact funext fun h => shapeCast_a_1a_apply _ _ (0 : Fin 1) h

/-! ## What the second region finds -/

theorem entry_Y (c : Dev nD) : AttnArr.arrY (V2 m ρ) c = mY m c := by
  refine (W2_of_ne m ρ c main_arg0 (by decide)).trans ?_
  show StableHlo.after hostOps0 (W0 m ρ c) (Proc.devRef .tc main_arg0) = _
  after_results

theorem entry_Wq (c : Dev nD) : matOf (AttnArr.arrWq (V2 m ρ) c) = matOf (mWq m c) := by
  have e : AttnArr.arrWq (V2 m ρ) c = (truncf .bf16 (mWq m c : FVec Ideal S1024x1024 .f32) bitsLt_bf16_f32 : FVec Ideal S1024x1024 .bf16) := by
    refine (W2_of_ne m ρ c main_v3 (by decide)).trans ?_
    show StableHlo.after hostOps0 (W0 m ρ c) (Proc.devRef .tc main_v3) = _
    after_results <;> rfl
  rw [e]; rfl

theorem entry_Bq (c : Dev nD) : vecOfRow (AttnArr.arrBq (V2 m ρ) c) = vecOf (mBq m c) := by
  have e : AttnArr.arrBq (V2 m ρ) c = (shapeCast S1x1024 (mBq m c) shapeCasts_S1024_S1x1024 : S1x1024.Idx → EReal) := by
    refine (W2_of_ne m ρ c main_v0 (by decide)).trans ?_
    show StableHlo.after hostOps0 (W0 m ρ c) (Proc.devRef .tc main_v0) = _
    after_results <;> rfl
  rw [e]
  exact funext fun h => shapeCast_a_1a_apply _ _ (0 : Fin 1) h

/-- The key array the second region finds: the normalised projections of X through the key weights and bias. -/
theorem entry_K (c : Dev nD) : AttnArr.arrK (V2 m ρ) c = npArr (mX m c) (matOf (mWk m c)) (vecOf (mBk m c)) := by
  refine (W2_arr m ρ c 5).trans ((KVArr.keyArr (V1 m ρ) c).trans ?_)
  show npArr (KVArr.arrX (V1 m ρ) c) (matOf (KVArr.arrWk (V1 m ρ) c)) (vecOfRow (KVArr.arrBk (V1 m ρ) c)) = _
  rw [entry_X, entry_Wk, entry_Bk]

/-- The value array the second region finds: the normalised projections of X through the value weights and bias. -/
theorem entry_V (c : Dev nD) : AttnArr.arrV (V2 m ρ) c = npArr (mX m c) (matOf (mWv m c)) (vecOf (mBv m c)) := by
  refine (W2_arr m ρ c 6).trans ((KVArr.valArr (V1 m ρ) c).trans ?_)
  show npArr (KVArr.arrX (V1 m ρ) c) (matOf (KVArr.arrWv (V1 m ρ) c)) (vecOfRow (KVArr.arrBv (V1 m ρ) c)) = _
  rw [entry_X, entry_Wv, entry_Bv]

/-! ## The two results -/

/-- The output buffer after the last region is the output function of the eight argument arrays. -/
theorem cross_value (c : Dev nD) :
    W3 m ρ c (Proc.devRef .tc main_v7_0)
      = fullCross (mY m c) (mX m c) (mWq m c) (mBq m c) (mWk m c) (mBk m c) (mWv m c) (mBv m c) := by
  refine (W3_arr m ρ c 5).trans ((AttnArr.crossArr_final (V2 m ρ) c).trans ?_)
  show crossArr (AttnArr.arrY (V2 m ρ) c) (matOf (AttnArr.arrWq (V2 m ρ) c)) (vecOfRow (AttnArr.arrBq (V2 m ρ) c))
    (AttnArr.arrK (V2 m ρ) c) (AttnArr.arrV (V2 m ρ) c) = _
  rw [entry_Y, entry_Wq, entry_Bq, entry_K, entry_V]
  rfl

/-- The attention buffer after the last region is the attention function of the six arrays it depends on. -/
theorem att_value (c : Dev nD) :
    W3 m ρ c (Proc.devRef .tc main_v7_1)
      = fullAtt (mY m c) (mX m c) (mWq m c) (mBq m c) (mWk m c) (mBk m c) := by
  refine (W3_arr m ρ c 6).trans ((AttnArr.attArr_final (V2 m ρ) c).trans ?_)
  show attArr (AttnArr.arrY (V2 m ρ) c) (matOf (AttnArr.arrWq (V2 m ρ) c)) (vecOfRow (AttnArr.arrBq (V2 m ρ) c))
    (AttnArr.arrK (V2 m ρ) c) = _
  rw [entry_Y, entry_Wq, entry_Bq, entry_K]
  rfl

end Cert.Attn.KVal

end
-- ==== Proof.LibHostReads.lean ====
/- Host operations read at an index, on the extended reals, for any shape: the host's quotient and square root are
   pointwise, a host sum from a rank-zero initial value is the exact sum from that value's one element, and a rank-zero
   constant broadcast to any shape reads the constant everywhere.  Each holds by unfolding the definition; stating them
   once over variable shapes lets a proof rewrite with them instead of unfolding full-size arrays.
   Nothing here depends on a particular program. -/
import Idealize.ShloMosaic.PureOps.Ideal
import Idealize.ShloMosaic.Lib.ValueIdx

noncomputable section

open Idealize.ShloMosaic

namespace Cert.Lib.HostReads

variable {s : Shape} {φ : FTy}

/-- The host's quotient reads index by index. -/
theorem hostDivf_apply (a b : FVec Ideal s φ) (i : s.Idx) : Host.divf a b i = Ideal.div (a i) (b i) := rfl

/-- The host's square root reads index by index. -/
theorem hostSqrt_apply (a : FVec Ideal s φ) (i : s.Idx) : Host.sqrt a i = Ideal.sqrt (a i) := rfl

/-- A product reads index by index (as a function). -/
theorem mulf_eq (a b : FVec Ideal s φ) : mulf a b = fun i => a i * b i := rfl

/-- The host's float sum from a rank-zero initial value is the exact sum from that value's one element. -/
theorem hostReduceAdd_apply {axes : List (Fin s.rank)} {t u : Shape} (x : FVec Ideal s φ) (init : u.Idx → Ideal φ)
    (h : s.ReducesTo axes t) (hu : 0 < u.numel) (j : t.Idx) :
    Host.reduceAdd x init h hu j = Ideal.hostReduceAdd h x (init (Shape.Idx.first hu)) j := rfl

/-- A rank-zero constant broadcast to any shape reads the constant's value at every index. -/
theorem broadcast_constant_apply {t : Shape} (dims : Fin (⟨0, ![]⟩ : Shape).rank → Fin t.rank)
    (h : (⟨0, ![]⟩ : Shape).BroadcastsInDim t dims) (b : BitVec φ.bits) (j : t.Idx) :
    broadcastInDim t dims h (constant (F := Ideal) ⟨0, ![]⟩ φ b) j = Ideal.ofBits φ b := rfl

end Cert.Lib.HostReads

end
-- ==== Proof.LibRank3Reads.lean ====
/- Rank-3 host layouts and a host row sum read at coordinates, on the extended reals, for any extents: a [B, L, 1] array
   broadcast along its last axis to [B, L, N] reads its entry (b, l, 0) at every (b, l, h); a [B, L] array given a
   trailing unit axis reads its entry (b, l) at (b, l, z); and the host's sum along the last axis of a [B, L, N] array
   from the zero constant is, at (b, l), the sum over k of the array at (b, l, k).  Nothing here depends on a
   particular program. -/
import Idealize.ShloMosaic.PureOps.Ideal
import Idealize.ShloMosaic.PureOps.Ideal.Laws
import Idealize.ShloMosaic.Lib.ValueIdx
import Idealize.ShloMosaic.Lib.Pipeline.Value
import proofs.«173738_j10161892623139_2_alg».proof.Proof.LibHostReads

noncomputable section

open scoped BigOperators

open Idealize.ShloMosaic Idealize.ShloMosaic.ValueIdx

namespace Cert.Lib.Rank3Reads

/-- A [B, L, 1] array broadcast along its last axis to [B, L, N] reads, at (b, l, h), the entry (b, l, 0). -/
theorem bcast_last_apply {α : Type} {B L N : ℕ} (v : (⟨3, ![B, L, 1]⟩ : Shape).Idx → α)
    (hb : (⟨3, ![B, L, 1]⟩ : Shape).BroadcastsInDim ⟨3, ![B, L, N]⟩ ![0, 1, 2]) (b : Fin B) (l : Fin L) (h : Fin N) :
    broadcastInDim ⟨3, ![B, L, N]⟩ ![0, 1, 2] hb v (ix3 b l h) = v (ix3 b l (0 : Fin 1)) := by
  refine broadcastInDim_apply _ hb v (ix3 b l h) (ix3 b l (0 : Fin 1)) fun ax => ?_
  match ax with
  | ⟨0, _⟩ =>
    show b.val = if B = 1 then 0 else b.val
    split
    · have := b.isLt; omega
    · rfl
  | ⟨1, _⟩ =>
    show l.val = if L = 1 then 0 else l.val
    split
    · have := l.isLt; omega
    · rfl
  | ⟨2, _⟩ => rfl

/-- A [B, L] array given a trailing unit axis reads, at (b, l, z), the entry (b, l). -/
theorem bcast_unsq_apply {α : Type} {B L : ℕ} (v : (⟨2, ![B, L]⟩ : Shape).Idx → α)
    (hb : (⟨2, ![B, L]⟩ : Shape).BroadcastsInDim ⟨3, ![B, L, 1]⟩ ![0, 1]) (b : Fin B) (l : Fin L) (z : Fin 1) :
    broadcastInDim ⟨3, ![B, L, 1]⟩ ![0, 1] hb v (ix3 b l z) = v (ix2 b l) := by
  refine broadcastInDim_apply _ hb v (ix3 b l z) (ix2 b l) fun ax => ?_
  match ax with
  | ⟨0, _⟩ =>
    show b.val = if B = 1 then 0 else b.val
    split
    · have := b.isLt; omega
    · rfl
  | ⟨1, _⟩ =>
    show l.val = if L = 1 then 0 else l.val
    split
    · have := l.isLt; omega
    · rfl

/-- The host's sum along the last axis of a [B, L, N] array from the zero constant, at (b, l): the sum over k of
    the array at (b, l, k). -/
theorem rowSum_apply {B L N : ℕ} (x : FVec Ideal ⟨3, ![B, L, N]⟩ .f32)
    (h' : (⟨3, ![B, L, N]⟩ : Shape).ReducesTo [2] ⟨2, ![B, L]⟩) (h : (⟨3, ![B, L, N]⟩ : Shape).Reduces [2] ⟨2, ![B, L]⟩)
    (hu : 0 < (⟨0, ![]⟩ : Shape).numel) (b : Fin B) (l : Fin L) :
    Host.reduceAdd x (constant (F := Ideal) ⟨0, ![]⟩ .f32 0x00000000#32) h' hu (ix2 b l) = ∑ k : Fin N, x (ix3 b l k) := by
  rw [Cert.Lib.HostReads.hostReduceAdd_apply, Ideal.hostReduceAdd_single h' h]
  show Ideal.ofBits .f32 0x00000000#32 + _ = _
  rw [Ideal.ofBits_zero_f32, zero_add]
  exact Finset.sum_congr rfl fun k _ => congrArg x (funext fun a => Fin.ext (by
    match a with
    | ⟨0, _⟩ => rfl
    | ⟨1, _⟩ => rfl
    | ⟨2, _⟩ => rfl))

end Cert.Lib.Rank3Reads

end
-- ==== Proof.RefOps.lean ====
/- The reference program's operations read at coordinates, on the extended reals.

   Each lemma takes one operation, or one fixed composite of operations, of the whole-array program and reads it
   at an index (b, l, h): a dense layer is a sum over the contracted coordinate plus the bias entry, the
   normalisation composite is the row scaled by the reciprocal square root of its floored squared length, the two
   batched products are sums over the contracted coordinate within one batch, and the softmax composite is the
   shifted exponential over the sum of the shifted exponentials.  The arrays are variables throughout. -/
import proofs.«173738_j10161892623139_2_alg».proof.Proof.Gen.ReferenceIdeal.Run
import proofs.«173738_j10161892623139_2_alg».proof.Proof.ArraySpec
import proofs.«173738_j10161892623139_2_alg».proof.Proof.LibHostReads
import proofs.«173738_j10161892623139_2_alg».proof.Proof.LibMaxFold
import proofs.«173738_j10161892623139_2_alg».proof.Proof.LibRank3Reads
import Idealize.ShloMosaic.PureOps.Ideal.Laws
import Idealize.ShloMosaic.Lib.ValueIdx
import Idealize.ShloMosaic.Lib.Pipeline.Value

noncomputable section

open scoped BigOperators

open Cert.ReferenceIdeal Cert.ReferenceIdeal.Gen Idealize.ShloMosaic Idealize.ShloMosaic.ValueIdx Idealize.ShloMosaic.StableHlo
open Cert.Lib.Rank3Reads

namespace Cert.Attn.Ref

local notation "dProj" => dot_S16x2048x1024_S1024x1024_S16x2048x1024_2_0_01_1_n_n
local notation "dScore" => dot_S16x2048x1024_S16x2048x1024_S16x2048x2048_2_2_1_1_0_0
local notation "dMix" => dot_S16x2048x2048_S16x2048x1024_S16x2048x1024_2_1_1_2_0_0

/-- The dense layer's product at (b, l, h): the sum over k of A(b, l, k) · W(k, h). -/
theorem proj_dot_apply (A : FVec Ideal S16x2048x1024 .f32) (W : FVec Ideal S1024x1024 .f32) (b : Fin 16) (l : Fin 2048)
    (h : Fin 1024) :
    Host.dotGeneral (F := Ideal) dProj none A W (ix3 b l h) = ∑ k : Fin 1024, A (ix3 b l k) * W (ix2 k h) := by
  show FloatOps.dotGeneral dProj none .single A W (ix3 b l h) = _
  rw [Ideal.dotGeneral_apply, ← Equiv.sum_comp (contrEquiv1 dProj 1024 rfl rfl).symm]
  refine Finset.sum_congr rfl fun k _ => ?_
  have hk := contrEquiv1_symm_val dProj 1024 rfl rfl k
  have el : (dProj).lhsIdx (ix3 b l h) ((contrEquiv1 dProj 1024 rfl rfl).symm k) = ix3 b l k :=
    funext fun a => Fin.ext (by
      match a with
      | ⟨0, _⟩ => rfl
      | ⟨1, _⟩ => rfl
      | ⟨2, _⟩ => exact ((dProj).lhsIdx_val_of_single rfl _ _).trans hk)
  have er : (dProj).rhsIdx (ix3 b l h) ((contrEquiv1 dProj 1024 rfl rfl).symm k) = ix2 k h :=
    funext fun a => Fin.ext (by
      match a with
      | ⟨0, _⟩ => exact ((dProj).rhsIdx_val_of_single rfl _ _).trans hk
      | ⟨1, _⟩ => rfl)
  rw [el, er]

/-- The bias made a [1, 1, 1024] array and broadcast to [16, 2048, 1024] reads, at (b, l, h), the bias at h. -/
theorem bias_bcast_apply {α : Type} (v : S1024.Idx → α) (b : Fin 16) (l : Fin 2048) (h : Fin 1024) :
    broadcastInDim S16x2048x1024 ![0, 1, 2] bcast_S1x1x1024_S16x2048x1024_0_1_2
        (broadcastInDim S1x1x1024 ![2] bcast_S1024_S1x1x1024_2 v) (ix3 b l h) = v (ix1 h) := by
  rw [broadcastInDim_apply _ _ _ (ix3 b l h) (ix3 (0 : Fin 1) (0 : Fin 1) h) fun ax => by
    match ax with
    | ⟨0, _⟩ => rfl
    | ⟨1, _⟩ => rfl
    | ⟨2, _⟩ => rfl]
  exact broadcastInDim_apply _ _ v _ (ix1 h) fun ax => by
    match ax with
    | ⟨0, _⟩ => rfl

/-- The dense layer at (b, l, h): the projected row's entry h. -/
theorem dense_eq (A : FVec Ideal S16x2048x1024 .f32) (W : FVec Ideal S1024x1024 .f32) (v : FVec Ideal S1024 .f32) :
    addf (Host.dotGeneral (F := Ideal) dProj none A W)
        (broadcastInDim S16x2048x1024 ![0, 1, 2] bcast_S1x1x1024_S16x2048x1024_0_1_2
          (broadcastInDim S1x1x1024 ![2] bcast_S1024_S1x1x1024_2 v))
      = fun i => projRow (rowOf A (i 0) (i 1)) (matOf W) (vecOf v) (i 2) := by
  funext i
  obtain ⟨b, l, h, rfl⟩ : ∃ (b : Fin 16) (l : Fin 2048) (h : Fin 1024), i = ix3 b l h := ⟨i 0, i 1, i 2, eq_ix3 i⟩
  rw [addf_apply, proj_dot_apply, bias_bcast_apply]
  rfl

/-- The host's maximum along the last axis of a [B, L, N] array from the constant -infinity, at (b, l): the maximum,
    from the bottom, of the row (b, l). -/
theorem rowMax_apply {B L N : ℕ} (x : FVec Ideal ⟨3, ![B, L, N]⟩ .f32)
    (h' : (⟨3, ![B, L, N]⟩ : Shape).ReducesTo [2] ⟨2, ![B, L]⟩) (h : (⟨3, ![B, L, N]⟩ : Shape).Reduces [2] ⟨2, ![B, L]⟩)
    (hu : 0 < (⟨0, ![]⟩ : Shape).numel) (b : Fin B) (l : Fin L) :
    Host.reduce FloatOps.maximumf x (constant (F := Ideal) ⟨0, ![]⟩ .f32 0xFF800000#32) h' hu (ix2 b l)
      = maxRow (rowOf x b l) := by
  rw [Cert.Lib.MaxFold.hostMaxRed_apply x h' h hu (ix2 b l)]
  unfold maxRow
  refine congrArg (fun f => (Finset.univ : Finset (Fin N)).fold max ⊥ f) (funext fun k => ?_)
  exact congrArg x (funext fun a => Fin.ext (by
    match a with
    | ⟨0, _⟩ => rfl
    | ⟨1, _⟩ => rfl
    | ⟨2, _⟩ => rfl))

/-- The normalisation composite: the array times the broadcast reciprocal square root of its floored row sums of
    squares is, at (b, l, h), entry h of the normalised row (b, l). -/
theorem norm_eq (P : FVec Ideal S16x2048x1024 .f32) :
    mulf P (broadcastInDim S16x2048x1024 ![0, 1, 2] bcast_S16x2048x1_S16x2048x1024_0_1_2 (Host.rsqrt (maximumf (broadcastInDim S16x2048x1 ![0, 1] bcast_S16x2048_S16x2048x1_0_1 (Host.reduceAdd (mulf P P) (constant (F := Ideal) S_ .f32 0x00000000#32) reducesTo_S16x2048x1024_S16x2048_d2 h_S_)) (broadcastInDim S16x2048x1 ![] bcast_S_S16x2048x1 (constant (F := Ideal) S_ .f32 0x2B8CBCCC#32)))))
      = fun i => normRow (rowOf P (i 0) (i 1)) (i 2) := by
  funext i
  obtain ⟨b, l, h, rfl⟩ : ∃ (b : Fin 16) (l : Fin 2048) (h : Fin 1024), i = ix3 b l h := ⟨i 0, i 1, i 2, eq_ix3 i⟩
  rw [mulf_apply, bcast_last_apply]
  show P (ix3 b l h) * Ideal.rsqrt (max (broadcastInDim S16x2048x1 ![0, 1] bcast_S16x2048_S16x2048x1_0_1
    (Host.reduceAdd (mulf P P) (constant (F := Ideal) S_ .f32 0x00000000#32) reducesTo_S16x2048x1024_S16x2048_d2 h_S_) (ix3 b l (0 : Fin 1)))
    (Ideal.ofBits .f32 0x2B8CBCCC#32)) = _
  rw [bcast_unsq_apply, rowSum_apply _ _ (by decide)]
  rfl

/-- The batched product of queries with keys at (b, i, j): the sum over h of Q(b, i, h) · K(b, j, h). -/
theorem score_dot_apply (Q K : FVec Ideal S16x2048x1024 .f32) (b : Fin 16) (i j : Fin 2048) :
    Host.dotGeneral (F := Ideal) dScore none Q K (ix3 b i j) = ∑ h : Fin 1024, Q (ix3 b i h) * K (ix3 b j h) := by
  show FloatOps.dotGeneral dScore none .single Q K (ix3 b i j) = _
  rw [Ideal.dotGeneral_apply, ← Equiv.sum_comp (contrEquiv1 dScore 1024 rfl rfl).symm]
  refine Finset.sum_congr rfl fun k _ => ?_
  have hk := contrEquiv1_symm_val dScore 1024 rfl rfl k
  have el : (dScore).lhsIdx (ix3 b i j) ((contrEquiv1 dScore 1024 rfl rfl).symm k) = ix3 b i k :=
    funext fun a => Fin.ext (by
      match a with
      | ⟨0, _⟩ => rfl
      | ⟨1, _⟩ => rfl
      | ⟨2, _⟩ => exact ((dScore).lhsIdx_val_of_single rfl _ _).trans hk)
  have er : (dScore).rhsIdx (ix3 b i j) ((contrEquiv1 dScore 1024 rfl rfl).symm k) = ix3 b j k :=
    funext fun a => Fin.ext (by
      match a with
      | ⟨0, _⟩ => rfl
      | ⟨1, _⟩ => rfl
      | ⟨2, _⟩ => exact ((dScore).rhsIdx_val_of_single rfl _ _).trans hk)
  rw [el, er]

/-- The batched product of weights with values at (b, i, h): the sum over j of A(b, i, j) · V(b, j, h). -/
theorem mix_dot_apply (A : FVec Ideal S16x2048x2048 .f32) (V : FVec Ideal S16x2048x1024 .f32) (b : Fin 16) (i : Fin 2048)
    (h : Fin 1024) :
    Host.dotGeneral (F := Ideal) dMix none A V (ix3 b i h) = ∑ j : Fin 2048, A (ix3 b i j) * V (ix3 b j h) := by
  show FloatOps.dotGeneral dMix none .single A V (ix3 b i h) = _
  rw [Ideal.dotGeneral_apply, ← Equiv.sum_comp (contrEquiv1 dMix 2048 rfl rfl).symm]
  refine Finset.sum_congr rfl fun k _ => ?_
  have hk := contrEquiv1_symm_val dMix 2048 rfl rfl k
  have el : (dMix).lhsIdx (ix3 b i h) ((contrEquiv1 dMix 2048 rfl rfl).symm k) = ix3 b i k :=
    funext fun a => Fin.ext (by
      match a with
      | ⟨0, _⟩ => rfl
      | ⟨1, _⟩ => rfl
      | ⟨2, _⟩ => exact ((dMix).lhsIdx_val_of_single rfl _ _).trans hk)
  have er : (dMix).rhsIdx (ix3 b i h) ((contrEquiv1 dMix 2048 rfl rfl).symm k) = ix3 b k h :=
    funext fun a => Fin.ext (by
      match a with
      | ⟨0, _⟩ => rfl
      | ⟨1, _⟩ => exact ((dMix).rhsIdx_val_of_single rfl _ _).trans hk
      | ⟨2, _⟩ => rfl)
  rw [el, er]

/-- The scores: the batched product divided by the broadcast square root of 1024 is, at (b, i, j), the score of
    query row (b, i) against key row (b, j). -/
theorem score_eq (Q K : FVec Ideal S16x2048x1024 .f32) :
    Host.divf (Host.dotGeneral (F := Ideal) dScore none Q K) (broadcastInDim S16x2048x2048 ![] bcast_S_S16x2048x2048 (Host.sqrt (constant (F := Ideal) S_ .f32 0x44800000#32)))
      = fun i => scoreRow (rowOf Q (i 0) (i 1)) (rowsOf K (i 0)) (i 2) := by
  funext i
  obtain ⟨b, l, j, rfl⟩ : ∃ (b : Fin 16) (l : Fin 2048) (j : Fin 2048), i = ix3 b l j := ⟨i 0, i 1, i 2, eq_ix3 i⟩
  show Ideal.div (Host.dotGeneral (F := Ideal) dScore none Q K (ix3 b l j)) (Ideal.sqrt (Ideal.ofBits .f32 0x44800000#32)) = _
  rw [Cert.Attn.div_sqrt_1024, score_dot_apply]
  rfl

/-- The mix: the batched product of weights with values is, at (b, i, h), entry h of the rows of V of batch b mixed
    with the weights of row (b, i). -/
theorem mix_eq (A : FVec Ideal S16x2048x2048 .f32) (V : FVec Ideal S16x2048x1024 .f32) :
    Host.dotGeneral (F := Ideal) dMix none A V = fun i => mixRow (rowOf A (i 0) (i 1)) (rowsOf V (i 0)) (i 2) := by
  funext i
  obtain ⟨b, l, h, rfl⟩ : ∃ (b : Fin 16) (l : Fin 2048) (h : Fin 1024), i = ix3 b l h := ⟨i 0, i 1, i 2, eq_ix3 i⟩
  rw [mix_dot_apply]
  rfl

/-- The shifted exponentials: the exponential of the array minus its broadcast row maxima is, at (b, i, j), the
    shifted exponential of row (b, i) at j. -/
theorem exp_eq (S : FVec Ideal S16x2048x2048 .f32) :
    Host.exp (subf S (broadcastInDim S16x2048x2048 ![0, 1, 2] bcast_S16x2048x1_S16x2048x2048_0_1_2 (broadcastInDim S16x2048x1 ![0, 1] bcast_S16x2048_S16x2048x1_0_1 (maximumf (broadcastInDim S16x2048 ![] bcast_S_S16x2048 (constant (F := Ideal) S_ .f32 0xFF800000#32)) (Host.reduce FloatOps.maximumf S (constant (F := Ideal) S_ .f32 0xFF800000#32) reducesTo_S16x2048x2048_S16x2048_d2 h_S_)))))
      = fun i => expRow (rowOf S (i 0) (i 1)) (i 2) := by
  funext i
  obtain ⟨b, l, j, rfl⟩ : ∃ (b : Fin 16) (l : Fin 2048) (j : Fin 2048), i = ix3 b l j := ⟨i 0, i 1, i 2, eq_ix3 i⟩
  show Ideal.exp (S (ix3 b l j) - broadcastInDim S16x2048x2048 ![0, 1, 2] bcast_S16x2048x1_S16x2048x2048_0_1_2 (broadcastInDim S16x2048x1 ![0, 1] bcast_S16x2048_S16x2048x1_0_1 (maximumf (broadcastInDim S16x2048 ![] bcast_S_S16x2048 (constant (F := Ideal) S_ .f32 0xFF800000#32)) (Host.reduce FloatOps.maximumf S (constant (F := Ideal) S_ .f32 0xFF800000#32) reducesTo_S16x2048x2048_S16x2048_d2 h_S_))) (ix3 b l j))
    = Ideal.exp (S (ix3 b l j) - maxRow (rowOf S b l))
  rw [bcast_last_apply, bcast_unsq_apply, maximumf_apply]
  show Ideal.exp (S (ix3 b l j) - max (Ideal.ofBits .f32 0xFF800000#32) (Host.reduce FloatOps.maximumf S (constant (F := Ideal) S_ .f32 0xFF800000#32) reducesTo_S16x2048x2048_S16x2048_d2 h_S_ (ix2 b l))) = _
  rw [Cert.Lib.MaxFold.ofBits_neg_inf, max_bot_left, rowMax_apply _ _ (by decide)]

/-- The softmax division: an array over its broadcast row sums is, at (b, i, j), the entry over the sum of row
    (b, i). -/
theorem rowDiv_eq (E : FVec Ideal S16x2048x2048 .f32) :
    Host.divf E (broadcastInDim S16x2048x2048 ![0, 1, 2] bcast_S16x2048x1_S16x2048x2048_0_1_2 (broadcastInDim S16x2048x1 ![0, 1] bcast_S16x2048_S16x2048x1_0_1 (Host.reduceAdd E (constant (F := Ideal) S_ .f32 0x00000000#32) reducesTo_S16x2048x2048_S16x2048_d2 h_S_)))
      = fun i => Ideal.div (E i) (∑ k : Fin 2048, rowOf E (i 0) (i 1) k) := by
  funext i
  obtain ⟨b, l, j, rfl⟩ : ∃ (b : Fin 16) (l : Fin 2048) (j : Fin 2048), i = ix3 b l j := ⟨i 0, i 1, i 2, eq_ix3 i⟩
  show Ideal.div (E (ix3 b l j)) (broadcastInDim S16x2048x2048 ![0, 1, 2] bcast_S16x2048x1_S16x2048x2048_0_1_2 (broadcastInDim S16x2048x1 ![0, 1] bcast_S16x2048_S16x2048x1_0_1 (Host.reduceAdd E (constant (F := Ideal) S_ .f32 0x00000000#32) reducesTo_S16x2048x2048_S16x2048_d2 h_S_)) (ix3 b l j)) = _
  rw [bcast_last_apply, bcast_unsq_apply, rowSum_apply _ _ (by decide)]
  rfl

end Cert.Attn.Ref

end
-- ==== Proof.RefValue.lean ====
/- The reference program's two result arrays are the attention layer's, index by index.

   The whole-array program is read bottom up.  Each dense layer is the projected row at every (b, l); each
   normalisation composite is the normalised row; the batched product of queries with keys over the square root of
   1024 is the score row; the exponential of the scores minus their row maxima, over the row sums, is the softmax
   row; the batched product of the weights with the values is the mixed row; and the sum of the query row with the
   normalised mixed row, normalised, is the output row.  Every step is one lemma of Proof/RefOps.lean applied to
   the array the step before produced. -/
import proofs.«173738_j10161892623139_2_alg».proof.Proof.RefOps

set_option maxRecDepth 8192

noncomputable section

open scoped BigOperators

open Cert.ReferenceIdeal Cert.ReferenceIdeal.Value Cert.ReferenceIdeal.Gen Idealize.ShloMosaic Idealize.ShloMosaic.ValueIdx
  Idealize.ShloMosaic.TcCoe Idealize.SL.Sem Idealize.ShloMosaic.StableHlo

namespace Cert.Attn.Ref

variable (V0 : Valuation τ sig (Elt Ideal))

/-- The eight argument arrays: Y, X, and the weights and biases of the three dense layers. -/
abbrev aY : T3 16 2048 1024 := V0 (Proc.devRef .tc main_arg0)
abbrev aX : T3 16 2048 1024 := V0 (Proc.devRef .tc main_arg1)
abbrev aWq : T2 1024 1024 := V0 (Proc.devRef .tc main_arg2)
abbrev abq : T1 1024 := V0 (Proc.devRef .tc main_arg3)
abbrev aWk : T2 1024 1024 := V0 (Proc.devRef .tc main_arg4)
abbrev abk : T1 1024 := V0 (Proc.devRef .tc main_arg5)
abbrev aWv : T2 1024 1024 := V0 (Proc.devRef .tc main_arg6)
abbrev abv : T1 1024 := V0 (Proc.devRef .tc main_arg7)

/-- The queries, keys and values: the normalised projections. -/
abbrev aQ : T3 16 2048 1024 := npArr (aY V0) (matOf (aWq V0)) (vecOf (abq V0))
abbrev aK : T3 16 2048 1024 := npArr (aX V0) (matOf (aWk V0)) (vecOf (abk V0))
abbrev aV : T3 16 2048 1024 := npArr (aX V0) (matOf (aWv V0)) (vecOf (abv V0))

/-- The three dense layers. -/
theorem v3_eq : res_main_v3 V0 = fun i => projRow (rowOf (aY V0) (i 0) (i 1)) (matOf (aWq V0)) (vecOf (abq V0)) (i 2) :=
  dense_eq _ _ _

theorem v15_eq : res_main_v15 V0 = fun i => projRow (rowOf (aX V0) (i 0) (i 1)) (matOf (aWk V0)) (vecOf (abk V0)) (i 2) :=
  dense_eq _ _ _

theorem v27_eq : res_main_v27 V0 = fun i => projRow (rowOf (aX V0) (i 0) (i 1)) (matOf (aWv V0)) (vecOf (abv V0)) (i 2) :=
  dense_eq _ _ _

/-- The queries. -/
theorem v11_eq : res_main_v11 V0 = aQ V0 :=
  (norm_eq (res_main_v3 V0)).trans (by rw [v3_eq]; rfl)

/-- The scores. -/
theorem v39_eq : res_main_v39 V0 = fun i => scoreRow (rowOf (aQ V0) (i 0) (i 1)) (rowsOf (aK V0) (i 0)) (i 2) := by
  unfold res_main_v39
  rw [norm_eq (res_main_v15 V0), v15_eq, v11_eq]
  exact score_eq (aQ V0) (aK V0)

/-- The shifted exponentials of the scores. -/
theorem v46_eq :
    res_main_v46 V0 = fun i => expRow (scoreRow (rowOf (aQ V0) (i 0) (i 1)) (rowsOf (aK V0) (i 0))) (i 2) :=
  (exp_eq (res_main_v39 V0)).trans (by rw [v39_eq]; rfl)

/-- The attention weights. -/
theorem att_arr_eq :
    Host.divf (res_main_v46 V0) (broadcastInDim S16x2048x2048 ![0, 1, 2] bcast_S16x2048x1_S16x2048x2048_0_1_2 (broadcastInDim S16x2048x1 ![0, 1] bcast_S16x2048_S16x2048x1_0_1 (Host.reduceAdd (res_main_v46 V0) (constant S_ .f32 0x00000000#32) reducesTo_S16x2048x2048_S16x2048_d2 h_S_)))
      = attArr (aY V0) (matOf (aWq V0)) (vecOf (abq V0)) (aK V0) :=
  (rowDiv_eq (res_main_v46 V0)).trans (by rw [v46_eq]; rfl)

/-- The mixed rows. -/
theorem v51_eq :
    res_main_v51 V0 = fun i => mixRow (attRow (rowOf (aQ V0) (i 0) (i 1)) (rowsOf (aK V0) (i 0))) (rowsOf (aV V0) (i 0)) (i 2) := by
  unfold res_main_v51
  rw [att_arr_eq, norm_eq (res_main_v27 V0), v27_eq]
  exact (mix_eq (attArr (aY V0) (matOf (aWq V0)) (vecOf (abq V0)) (aK V0)) (aV V0)).trans rfl

/-- The query rows plus the normalised mixed rows. -/
theorem v60_eq :
    res_main_v60 V0 = fun i => rowOf (aQ V0) (i 0) (i 1) (i 2)
      + normRow (mixRow (attRow (rowOf (aQ V0) (i 0) (i 1)) (rowsOf (aK V0) (i 0))) (rowsOf (aV V0) (i 0))) (i 2) := by
  unfold res_main_v60
  rw [norm_eq (res_main_v51 V0), v51_eq, v11_eq]
  rfl

/-- The reference program's output array is the attention layer's output, as a function of the eight arguments. -/
theorem cross_eq (V0 : Valuation τ sig (Elt Ideal)) :
    mulf (res_main_v60 V0) (broadcastInDim S16x2048x1024 ![0, 1, 2] bcast_S16x2048x1_S16x2048x1024_0_1_2 (Host.rsqrt (maximumf (broadcastInDim S16x2048x1 ![0, 1] bcast_S16x2048_S16x2048x1_0_1 (Host.reduceAdd (mulf (res_main_v60 V0) (res_main_v60 V0)) (constant S_ .f32 0x00000000#32) reducesTo_S16x2048x1024_S16x2048_d2 h_S_)) (broadcastInDim S16x2048x1 ![] bcast_S_S16x2048x1 (constant S_ .f32 0x2B8CBCCC#32)))))
      = Cert.Attn.fullCross (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) :=
  (norm_eq (res_main_v60 V0)).trans (by rw [v60_eq]; rfl)

/-- The reference program's attention-weight array is the attention layer's, as a function of the six arguments it
    depends on. -/
theorem att_eq (V0 : Valuation τ sig (Elt Ideal)) :
    Host.divf (res_main_v46 V0) (broadcastInDim S16x2048x2048 ![0, 1, 2] bcast_S16x2048x1_S16x2048x2048_0_1_2 (broadcastInDim S16x2048x1 ![0, 1] bcast_S16x2048_S16x2048x1_0_1 (Host.reduceAdd (res_main_v46 V0) (constant S_ .f32 0x00000000#32) reducesTo_S16x2048x2048_S16x2048_d2 h_S_)))
      = Cert.Attn.fullAtt (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) :=
  att_arr_eq V0

end Cert.Attn.Ref

end
-- ==== Proof.lean ====
/- Cross-attention with normalised projections, as a tiled two-kernel program and as one array program: the two compute
   the same attention weights and the same output on the extended reals.

   The tiled program first projects and normalises the rows of X into keys and values, 256 rows per grid point; its
   second kernel takes 256 rows of Y per grid point, projects and normalises them into queries, scores them against all
   keys of the batch (inner products times 0.03125), takes the softmax, mixes the values, and normalises the sum of the
   query and the normalised mix.  The array program does the same on whole arrays and divides the scores by the
   square root of 1024.  On the extended reals every change of float format is the identity and every operation exact,
   so each result entry is the same row function of the same rows (Proof/RowSpec.lean, Proof/ArraySpec.lean); the one
   law used is that a quotient by the square root of 1024 is the product with 0.03125, on every extended real, so the
   finiteness of the inputs is never opened.

   The tiled program's results: Proof/KerOps.lean, Proof/TileKV.lean and Proof/TileAttn.lean read what each grid point
   writes back, Proof/ArrKV.lean and Proof/ArrAttn.lean piece the blocks into whole arrays, and Proof/KernelValue.lean
   chains the two kernels; Proof/KernelRunPost.lean is its run with the two result buffers
   kept.  The array program's results: Proof/RefOps.lean and Proof/RefValue.lean read its composed term index by index.
   The idealized kernel program is the printed program's own text read on the extended reals (no rewrite was applied),
   so the preservation claim is empty. -/
import proofs.«173738_j10161892623139_2_alg».proof.Defs
import proofs.«173738_j10161892623139_2_alg».proof.Proof.Gen.Kernel
import proofs.«173738_j10161892623139_2_alg».proof.Proof.Gen.Kernel.Frame
import proofs.«173738_j10161892623139_2_alg».proof.Proof.Gen.KernelIdeal
import proofs.«173738_j10161892623139_2_alg».proof.Proof.Gen.KernelIdeal.Frame
import proofs.«173738_j10161892623139_2_alg».proof.Proof.Gen.ReferenceIdeal
import proofs.«173738_j10161892623139_2_alg».proof.Proof.Gen.ReferenceIdeal.Run
import proofs.«173738_j10161892623139_2_alg».proof.Proof.Gen.Pre_finite_inputs
import proofs.«173738_j10161892623139_2_alg».proof.Proof.KernelRunPost
import proofs.«173738_j10161892623139_2_alg».proof.Proof.KernelValue
import proofs.«173738_j10161892623139_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem Cert.Attn

/-- The word-level kernel program runs and leaves its arguments as launched. -/
theorem frame_k [Cert.Kernel.Facts] [Cert.Pre_finite_inputs.Facts] : Cert.frame_Kernel :=
  fun m ρ _ => Cert.Kernel.Gen.frame m ρ

/-- The idealized kernel program runs and leaves its arguments as launched. -/
theorem frame_ki [Cert.KernelIdeal.Facts] [Cert.Pre_finite_inputs.Facts] : Cert.frame_KernelIdeal :=
  fun m ρ _ => Cert.KernelIdeal.Gen.frame m ρ

/-- The array program runs and leaves its arguments as launched: its run with the two results dropped. -/
theorem frame_ri [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.Value.run (F := Ideal) m ρ)

/-- From memories that agree on the eight arguments both programs end with the output at `fullCross` and the attention
    weights at `fullAtt` of those arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => fullCross (KVal.mY m c) (KVal.mX m c) (KVal.mWq m c) (KVal.mBq m c) (KVal.mWk m c) (KVal.mBk m c)
      (KVal.mWv m c) (KVal.mBv m c),
    fun c => fullAtt (KVal.mY m c) (KVal.mX m c) (KVal.mWq m c) (KVal.mBq m c) (KVal.mWk m c) (KVal.mBk m c), ?_, ?_⟩
  · exact (θ_run Cert.KernelIdeal.defs _ _).mono
      (fun _ h c => ⟨(h c).1.trans (KVal.cross_value m ρ c), (h c).2.1.trans (KVal.att_value m ρ c), (h c).2.2⟩)
      (Cert.Attn.Run.run_results (F := Ideal) m ρ)
  · refine (θ_run Cert.ReferenceIdeal.defs _ _).mono (fun _ h c => ?_) (Cert.ReferenceIdeal.Value.run (F := Ideal) m' ρ')
    obtain ⟨a0, a1, a2, a3, a4, a5, a6, a7⟩ := hagree c
    have e0 : StableHlo.launchContents m' c (Proc.devRef .tc Cert.ReferenceIdeal.main_arg0) = KVal.mY m c := a0
    have e1 : StableHlo.launchContents m' c (Proc.devRef .tc Cert.ReferenceIdeal.main_arg1) = KVal.mX m c := a1
    have e2 : StableHlo.launchContents m' c (Proc.devRef .tc Cert.ReferenceIdeal.main_arg2) = KVal.mWq m c := a2
    have e3 : StableHlo.launchContents m' c (Proc.devRef .tc Cert.ReferenceIdeal.main_arg3) = KVal.mBq m c := a3
    have e4 : StableHlo.launchContents m' c (Proc.devRef .tc Cert.ReferenceIdeal.main_arg4) = KVal.mWk m c := a4
    have e5 : StableHlo.launchContents m' c (Proc.devRef .tc Cert.ReferenceIdeal.main_arg5) = KVal.mBk m c := a5
    have e6 : StableHlo.launchContents m' c (Proc.devRef .tc Cert.ReferenceIdeal.main_arg6) = KVal.mWv m c := a6
    have e7 : StableHlo.launchContents m' c (Proc.devRef .tc Cert.ReferenceIdeal.main_arg7) = KVal.mBv m c := a7
    refine ⟨(h c).1.trans ?_, (h c).2.1.trans ?_, (h c).2.2⟩
    · rw [Cert.Attn.Ref.cross_eq, e0, e1, e2, e3, e4, e5, e6, e7]
    · rw [Cert.Attn.Ref.att_eq, e0, e1, e2, e3, e4, e5]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
